-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_arg11 : FVec F S128x64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x64 .f32) (main_arg10 : FVec F S64 .f32) (main_arg11 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x64 .f32) (main_arg10 : FVec F S64 .f32) (main_arg11 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S2000x128 : Shape := ⟨2, ![2000, 128]⟩
abbrev S512x128 : Shape := ⟨2, ![512, 128]⟩
abbrev S512x1 : Shape := ⟨2, ![512, 1]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 115
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000x1, .f32⟩
  | .hbm, ⟨31, _⟩ => ⟨S_, .f32⟩
  | .hbm, ⟨32, _⟩ => ⟨S50000x1, .f32⟩
  | .hbm, ⟨33, _⟩ => ⟨S600000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S_, .f32⟩
  | .hbm, ⟨59, _⟩ => ⟨S600000x1, .f32⟩
  | .hbm, ⟨60, _⟩ => ⟨S_, .f32⟩
  | .hbm, ⟨61, _⟩ => ⟨S50000x1, .f32⟩
  | .hbm, ⟨62, _⟩ => ⟨S600000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S512x128, .f32⟩
  | .hbm, ⟨76, _⟩ => ⟨S50000x1, .i32⟩
  | .hbm, ⟨77, _⟩ => ⟨S512x128, .f32⟩
  | .hbm, ⟨78, _⟩ => ⟨S_, .f32⟩
  | .hbm, ⟨79, _⟩ => ⟨S50000x1, .f32⟩
  | .hbm, ⟨80, _⟩ => ⟨S_, .f32⟩
  | .hbm, ⟨81, _⟩ => ⟨S512x1, .f32⟩
  | .hbm, ⟨82, _⟩ => ⟨S50000x1, .i32⟩
  | .hbm, ⟨83, _⟩ => ⟨S512x1, .f32⟩
  | .hbm, ⟨84, _⟩ => ⟨S_, .f32⟩
  | .hbm, ⟨85, _⟩ => ⟨S512x1, .f32⟩
  | .hbm, ⟨86, _⟩ => ⟨S512x1, .f32⟩
  | .hbm, ⟨87, _⟩ => ⟨S512x128, .f32⟩
  | .hbm, ⟨88, _⟩ => ⟨S512x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S_, .f32⟩
  | .hbm, ⟨103, _⟩ => ⟨S600000x1, .f32⟩
  | .hbm, ⟨104, _⟩ => ⟨S_, .f32⟩
  | .hbm, ⟨105, _⟩ => ⟨S50000x1, .f32⟩
  | .hbm, ⟨106, _⟩ => ⟨S600000x1, .i32⟩
  | .hbm, ⟨107, _⟩ => ⟨S50000x1, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x128, .f32⟩
  | .hbm, ⟨112, _⟩ => ⟨S50000x128, .f32⟩
  | .hbm, ⟨113, _⟩ => ⟨S1x64, .f32⟩
  | .hbm, ⟨114, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_21 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S512x128 : Shape := ⟨2, ![512, 128]⟩
abbrev S512x1 : Shape := ⟨2, ![512, 1]⟩
abbrev S50000x64 : Shape := ⟨2, ![50000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x64, .f32⟩
  | 10 => ⟨S64, .f32⟩
  | 11 => ⟨S128x64, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S_, .f32⟩
  | 30 => ⟨S600000x1, .f32⟩
  | 31 => ⟨S_, .f32⟩
  | 32 => ⟨S50000x1, .f32⟩
  | 33 => ⟨S600000x1, .i32⟩
  | 34 => ⟨S50000x1, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S_, .f32⟩
  | 63 => ⟨S600000x1, .f32⟩
  | 64 => ⟨S_, .f32⟩
  | 65 => ⟨S50000x1, .f32⟩
  | 66 => ⟨S600000x1, .i32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S512x128, .f32⟩
  | 84 => ⟨S50000x1, .i32⟩
  | 85 => ⟨S512x128, .f32⟩
  | 86 => ⟨S_, .f32⟩
  | 87 => ⟨S50000x1, .f32⟩
  | 88 => ⟨S_, .f32⟩
  | 89 => ⟨S512x1, .f32⟩
  | 90 => ⟨S50000x1, .i32⟩
  | 91 => ⟨S512x1, .f32⟩
  | 92 => ⟨S_, .f32⟩
  | 93 => ⟨S512x1, .f32⟩
  | 94 => ⟨S512x1, .f32⟩
  | 95 => ⟨S512x128, .f32⟩
  | 96 => ⟨S512x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S_, .f32⟩
  | 111 => ⟨S600000x1, .f32⟩
  | 112 => ⟨S_, .f32⟩
  | 113 => ⟨S50000x1, .f32⟩
  | 114 => ⟨S600000x1, .i32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S50000x64, .f32⟩
  | 122 => ⟨S1x64, .f32⟩
  | 123 => ⟨S50000x64, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000x1, .f32⟩
  | 5 => ⟨S50000x64, .f32⟩
  | 6 => ⟨S50000x64, .f32⟩
  | 7 => ⟨S50000x64, .f32⟩
  | 8 => ⟨S_, .f32⟩
  | 9 => ⟨S50000, .f32⟩
  | 10 => ⟨S50000x1, .f32⟩
  | 11 => ⟨S50000x1, .f32⟩
  | 12 => ⟨S50000x64, .f32⟩
  | 13 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call2_cst : Ref sig .tc := ⟨.hbm, 127, rfl⟩
abbrev main_call2_v0 : Ref sig .tc := ⟨.hbm, 128, rfl⟩
abbrev main_call2_cst_0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_cst_1 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_v89 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000x1_S50000x64_0_1 : S50000x1.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its three results named.

  The program is six segments: a stretch of host operations, a dense layer (a grid of 25 row blocks), a second stretch,
  a second dense layer, a third stretch and the last dense layer. Every weakly fair execution runs them in order
  without a fault, and at the end every buffer holds what the fold of the segments leaves in it: `W6`, in which a host
  stretch applies its operations to the contents before it and a dense layer replaces its output array by what its 25
  write-backs leave. Read at the three result buffers and the twelve argument buffers this is the statement below; the
  arguments are written by no segment.
-/
import proofs.«105766_j16209206575326_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; each result buffer ends at the fold's contents, each
    argument as launched. -/
theorem run_results : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_v45) = W6 m ρ c (Proc.devRef .tc main_v45)
      ∧ r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)), h c _ (mem_uc main_v45 (by decide)), h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.GlueKernel.lean ====
/-
  The host-side operations both programs apply around the dense layers, each named once as a function of whole arrays:
  the edge list's two rows, an index below zero counted from the end, the mean of the neighbours' rows (a gather by
  source, a scatter-add by destination, divided by the in-degree with empty neighbourhoods counted as one), the
  rectifier, and the mean of the node rows of each graph. They are compositions of the program's own operations and
  are never opened: a proof only needs that both programs apply the same ones to equal arrays.
-/
import proofs.«105766_j16209206575326_1_alg».proof.Proof.Gen.KernelIdeal

noncomputable section

namespace Cert.KernelIdeal.Glue

open Cert.KernelIdeal Cert.KernelIdeal.Gen Idealize.ShloMosaic

variable {F : FTy → Type} [FloatOps F]

/-- Row `r` of the edge list, as a vector of 600000 node ids. -/
def src (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

def dst (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A node id below zero counts from the end. -/
def wrap (s : (⟨S600000, .i32⟩ : BufTy).Contents (Elt F)) : (⟨S600000, .i32⟩ : BufTy).Contents (Elt F) :=
  select (cmpi .slt s (broadcastInDim S600000 ![] bcast_S_S600000 (constantI S_ 32 0#32))) (addi s (broadcastInDim S600000 ![] bcast_S_S600000 (constantI S_ 32 50000#32))) s

/-- The mean over each node's incoming edges of the source node's row. -/
def agg (x : (⟨S50000x128, .f32⟩ : BufTy).Contents (Elt F)) (s d : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 d) (Host.gather gather_S50000x128_S600000x1_S600000x128_1_0_n_n_0_1_1128 x (broadcastInDim S600000x1 ![0] bcast_S600000_S600000x1_0 (wrap s)))) (broadcastInDim S50000x128 ![0, 1] bcast_S50000x1_S50000x128_0_1 (maximumf (Host.scatterAdd scatter_S50000x1_S600000x1_S600000x1_1_0_0_1 (broadcastInDim S50000x1 ![] bcast_S_S50000x1 (constant S_ .f32 0x00000000#32)) (broadcastInDim S600000x1 ![0] bcast_S600000_S600000x1_0 d) (broadcastInDim S600000x1 ![] bcast_S_S600000x1 (constant S_ .f32 0x3F800000#32))) (broadcastInDim S50000x1 ![] bcast_S_S50000x1 (constant S_ .f32 0x3F800000#32))))

/-- The rectifier: the larger of each entry and zero. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The mean of the node rows of each of the 512 graphs. -/
def pool (x : (⟨S50000x128, .f32⟩ : BufTy).Contents (Elt F)) (cl : (⟨S50000, .i32⟩ : BufTy).Contents (Elt F)) :
    (⟨S512x128, .f32⟩ : BufTy).Contents (Elt F) :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 cl) x) (broadcastInDim S512x128 ![0, 1] bcast_S512x1_S512x128_0_1 (maximumf (Host.scatterAdd scatter_S512x1_S50000x1_S50000x1_1_0_0_1 (broadcastInDim S512x1 ![] bcast_S_S512x1 (constant S_ .f32 0x00000000#32)) (broadcastInDim S50000x1 ![0] bcast_S50000_S50000x1_0 cl) (broadcastInDim S50000x1 ![] bcast_S_S50000x1 (constant S_ .f32 0x3F800000#32))) (broadcastInDim S512x1 ![] bcast_S_S512x1 (constant S_ .f32 0x3F800000#32))))

end Cert.KernelIdeal.Glue

end
-- ==== Proof.KernelStages.lean ====
import proofs.«105766_j16209206575326_1_alg».proof.Proof.Gen.KernelIdeal.Frame
import proofs.«105766_j16209206575326_1_alg».proof.Proof.GlueKernel

set_option maxRecDepth 16384

noncomputable section

/-!
  What each stretch of host operations leaves in the buffers the next dense layer (or a later stretch) reads, as the
  named host functions of the contents the stretch started from. A buffer a stretch does not write keeps its contents.
-/
namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The first stretch, from the launch contents -/

set_option maxHeartbeats 16000000 in
theorem s0_src : W1 m ρ c (Proc.devRef .tc main_v1) = Glue.src (m ((c : Thread nD τ).loc main_arg1)) := by
  show StableHlo.after hostOps0 (W0 m ρ c) (Proc.devRef .tc main_v1) = _
  after_results_simp <;> rfl

set_option maxHeartbeats 16000000 in
theorem s0_dst : W1 m ρ c (Proc.devRef .tc main_v3) = Glue.dst (m ((c : Thread nD τ).loc main_arg1)) := by
  show StableHlo.after hostOps0 (W0 m ρ c) (Proc.devRef .tc main_v3) = _
  after_results_simp <;> rfl

set_option maxHeartbeats 16000000 in
theorem s0_agg : V1 m ρ c main_v21 = Glue.agg (m ((c : Thread nD τ).loc main_arg0)) (Glue.src (m ((c : Thread nD τ).loc main_arg1))) (Glue.dst (m ((c : Thread nD τ).loc main_arg1))) := by
  show StableHlo.after hostOps0 (W0 m ρ c) (Proc.devRef .tc main_v21) = _
  after_results_simp <;> rfl

set_option maxHeartbeats 16000000 in
theorem s0_bias : V1 m ρ c main_v22 = shapeCast _ (m ((c : Thread nD τ).loc main_arg4)) shapeCasts_S128_S1x128 := by
  show StableHlo.after hostOps0 (W0 m ρ c) (Proc.devRef .tc main_v22) = _
  after_results_simp <;> rfl

set_option maxHeartbeats 16000000 in
theorem s0_x : V1 m ρ c main_arg0 = (m ((c : Thread nD τ).loc main_arg0)) := by
  show StableHlo.after hostOps0 (W0 m ρ c) (Proc.devRef .tc main_arg0) = _
  after_results_simp <;> rfl

set_option maxHeartbeats 16000000 in
theorem s0_wl : V1 m ρ c main_arg3 = (m ((c : Thread nD τ).loc main_arg3)) := by
  show StableHlo.after hostOps0 (W0 m ρ c) (Proc.devRef .tc main_arg3) = _
  after_results_simp <;> rfl

set_option maxHeartbeats 16000000 in
theorem s0_wr : V1 m ρ c main_arg5 = (m ((c : Thread nD τ).loc main_arg5)) := by
  show StableHlo.after hostOps0 (W0 m ρ c) (Proc.devRef .tc main_arg5) = _
  after_results_simp <;> rfl

set_option maxHeartbeats 16000000 in
theorem s0_arg2 : W1 m ρ c (Proc.devRef .tc main_arg2) = (m ((c : Thread nD τ).loc main_arg2)) := by
  show StableHlo.after hostOps0 (W0 m ρ c) (Proc.devRef .tc main_arg2) = _
  after_results_simp <;> rfl

set_option maxHeartbeats 16000000 in
theorem s0_arg6 : W1 m ρ c (Proc.devRef .tc main_arg6) = (m ((c : Thread nD τ).loc main_arg6)) := by
  show StableHlo.after hostOps0 (W0 m ρ c) (Proc.devRef .tc main_arg6) = _
  after_results_simp <;> rfl

set_option maxHeartbeats 16000000 in
theorem s0_arg7 : W1 m ρ c (Proc.devRef .tc main_arg7) = (m ((c : Thread nD τ).loc main_arg7)) := by
  show StableHlo.after hostOps0 (W0 m ρ c) (Proc.devRef .tc main_arg7) = _
  after_results_simp <;> rfl

set_option maxHeartbeats 16000000 in
theorem s0_arg8 : W1 m ρ c (Proc.devRef .tc main_arg8) = (m ((c : Thread nD τ).loc main_arg8)) := by
  show StableHlo.after hostOps0 (W0 m ρ c) (Proc.devRef .tc main_arg8) = _
  after_results_simp <;> rfl

set_option maxHeartbeats 16000000 in
theorem s0_arg9 : W1 m ρ c (Proc.devRef .tc main_arg9) = (m ((c : Thread nD τ).loc main_arg9)) := by
  show StableHlo.after hostOps0 (W0 m ρ c) (Proc.devRef .tc main_arg9) = _
  after_results_simp <;> rfl

set_option maxHeartbeats 16000000 in
theorem s0_arg10 : W1 m ρ c (Proc.devRef .tc main_arg10) = (m ((c : Thread nD τ).loc main_arg10)) := by
  show StableHlo.after hostOps0 (W0 m ρ c) (Proc.devRef .tc main_arg10) = _
  after_results_simp <;> rfl

set_option maxHeartbeats 16000000 in
theorem s0_arg11 : W1 m ρ c (Proc.devRef .tc main_arg11) = (m ((c : Thread nD τ).loc main_arg11)) := by
  show StableHlo.after hostOps0 (W0 m ρ c) (Proc.devRef .tc main_arg11) = _
  after_results_simp <;> rfl

/-! ## The second stretch, from the contents the first dense layer leaves -/

set_option maxHeartbeats 16000000 in
theorem s1_x : V3 m ρ c main_v25 = Glue.relu (W2 m ρ c (Proc.devRef .tc main_v23)) := by
  show StableHlo.after hostOps1 (W2 m ρ c) (Proc.devRef .tc main_v25) = _
  after_results_simp <;> rfl

set_option maxHeartbeats 16000000 in
theorem s1_agg : V3 m ρ c main_v43 = Glue.agg (Glue.relu (W2 m ρ c (Proc.devRef .tc main_v23))) (W2 m ρ c (Proc.devRef .tc main_v1)) (W2 m ρ c (Proc.devRef .tc main_v3)) := by
  show StableHlo.after hostOps1 (W2 m ρ c) (Proc.devRef .tc main_v43) = _
  after_results_simp <;> rfl

set_option maxHeartbeats 16000000 in
theorem s1_bias : V3 m ρ c main_v44 = shapeCast _ (W2 m ρ c (Proc.devRef .tc main_arg7)) shapeCasts_S128_S1x128 := by
  show StableHlo.after hostOps1 (W2 m ρ c) (Proc.devRef .tc main_v44) = _
  after_results_simp <;> rfl

set_option maxHeartbeats 16000000 in
theorem s1_wl : V3 m ρ c main_arg6 = W2 m ρ c (Proc.devRef .tc main_arg6) := by
  show StableHlo.after hostOps1 (W2 m ρ c) (Proc.devRef .tc main_arg6) = _
  after_results_simp <;> rfl

set_option maxHeartbeats 16000000 in
theorem s1_wr : V3 m ρ c main_arg8 = W2 m ρ c (Proc.devRef .tc main_arg8) := by
  show StableHlo.after hostOps1 (W2 m ρ c) (Proc.devRef .tc main_arg8) = _
  after_results_simp <;> rfl

set_option maxHeartbeats 16000000 in
theorem s1_src : W3 m ρ c (Proc.devRef .tc main_v1) = W2 m ρ c (Proc.devRef .tc main_v1) := by
  show StableHlo.after hostOps1 (W2 m ρ c) (Proc.devRef .tc main_v1) = _
  after_results_simp <;> rfl

set_option maxHeartbeats 16000000 in
theorem s1_dst : W3 m ρ c (Proc.devRef .tc main_v3) = W2 m ρ c (Proc.devRef .tc main_v3) := by
  show StableHlo.after hostOps1 (W2 m ρ c) (Proc.devRef .tc main_v3) = _
  after_results_simp <;> rfl

set_option maxHeartbeats 16000000 in
theorem s1_arg2 : W3 m ρ c (Proc.devRef .tc main_arg2) = W2 m ρ c (Proc.devRef .tc main_arg2) := by
  show StableHlo.after hostOps1 (W2 m ρ c) (Proc.devRef .tc main_arg2) = _
  after_results_simp <;> rfl

set_option maxHeartbeats 16000000 in
theorem s1_arg9 : W3 m ρ c (Proc.devRef .tc main_arg9) = W2 m ρ c (Proc.devRef .tc main_arg9) := by
  show StableHlo.after hostOps1 (W2 m ρ c) (Proc.devRef .tc main_arg9) = _
  after_results_simp <;> rfl

set_option maxHeartbeats 16000000 in
theorem s1_arg10 : W3 m ρ c (Proc.devRef .tc main_arg10) = W2 m ρ c (Proc.devRef .tc main_arg10) := by
  show StableHlo.after hostOps1 (W2 m ρ c) (Proc.devRef .tc main_arg10) = _
  after_results_simp <;> rfl

set_option maxHeartbeats 16000000 in
theorem s1_arg11 : W3 m ρ c (Proc.devRef .tc main_arg11) = W2 m ρ c (Proc.devRef .tc main_arg11) := by
  show StableHlo.after hostOps1 (W2 m ρ c) (Proc.devRef .tc main_arg11) = _
  after_results_simp <;> rfl

/-! ## The third stretch, from the contents the second dense layer leaves -/

set_option maxHeartbeats 16000000 in
theorem s2_x : V5 m ρ c main_v47 = Glue.relu (W4 m ρ c (Proc.devRef .tc main_v45)) := by
  show StableHlo.after hostOps2 (W4 m ρ c) (Proc.devRef .tc main_v47) = _
  after_results_simp <;> rfl

set_option maxHeartbeats 16000000 in
theorem s2_agg : V5 m ρ c main_v76 = Glue.agg (Glue.relu (W4 m ρ c (Proc.devRef .tc main_v45))) (W4 m ρ c (Proc.devRef .tc main_v1)) (W4 m ρ c (Proc.devRef .tc main_v3)) := by
  show StableHlo.after hostOps2 (W4 m ρ c) (Proc.devRef .tc main_v76) = _
  after_results_simp <;> rfl

set_option maxHeartbeats 16000000 in
theorem s2_bias : V5 m ρ c main_v77 = shapeCast _ (W4 m ρ c (Proc.devRef .tc main_arg10)) shapeCasts_S64_S1x64 := by
  show StableHlo.after hostOps2 (W4 m ρ c) (Proc.devRef .tc main_v77) = _
  after_results_simp <;> rfl

set_option maxHeartbeats 16000000 in
theorem s2_wl : V5 m ρ c main_arg9 = W4 m ρ c (Proc.devRef .tc main_arg9) := by
  show StableHlo.after hostOps2 (W4 m ρ c) (Proc.devRef .tc main_arg9) = _
  after_results_simp <;> rfl

set_option maxHeartbeats 16000000 in
theorem s2_wr : V5 m ρ c main_arg11 = W4 m ρ c (Proc.devRef .tc main_arg11) := by
  show StableHlo.after hostOps2 (W4 m ρ c) (Proc.devRef .tc main_arg11) = _
  after_results_simp <;> rfl

set_option maxHeartbeats 16000000 in
theorem s2_pool : W5 m ρ c (Proc.devRef .tc main_v58) = Glue.pool (Glue.relu (W4 m ρ c (Proc.devRef .tc main_v45))) (W4 m ρ c (Proc.devRef .tc main_arg2)) := by
  show StableHlo.after hostOps2 (W4 m ρ c) (Proc.devRef .tc main_v58) = _
  after_results_simp <;> rfl

set_option maxHeartbeats 16000000 in
theorem s2_out1 : W5 m ρ c (Proc.devRef .tc main_v45) = W4 m ρ c (Proc.devRef .tc main_v45) := by
  show StableHlo.after hostOps2 (W4 m ρ c) (Proc.devRef .tc main_v45) = _
  after_results_simp <;> rfl

end Cert.KernelIdeal.Stages

end
-- ==== Proof.LayerSpec.lean ====
/-
  One message-passing layer as a function of whole arrays, entry by entry, on the extended reals.

  For node features `x` and neighbourhood means `agg` (both `[N, D]`), weights `wl`, `wr` (both `[D, C]`) and a bias
  row `b` (`[1, C]`), the layer's value at node `p` and output feature `c` is
      (∑ k, agg p k · wl k c  +  ∑ k, x p k · wr k c)  +  b 0 c.
  The last layer is followed by a row-wise log-softmax: with `m p` the supremum of row `p`,
      (y p c − m p) − log (∑ k, exp (y p k − m p)).
  Addition on the extended reals is commutative and associative (no finiteness is needed for that), so the bias may be
  added before or after the second product: `lin_comm`.
-/
import Idealize.ShloMosaic.PureOps.Ideal
import Idealize.ShloMosaic.Lib.ValueIdx

noncomputable section

namespace Cert.Layer

open Idealize.ShloMosaic Idealize.ShloMosaic.ValueIdx
open scoped BigOperators

variable {N D C : ℕ}

/-- The layer before any activation, at node `p` and output feature `c`. -/
def linAt (agg x : FVec Ideal ⟨2, ![N, D]⟩ .f32) (wl wr : FVec Ideal ⟨2, ![D, C]⟩ .f32)
    (b : FVec Ideal ⟨2, ![1, C]⟩ .f32) (p : Fin N) (c : Fin C) : EReal :=
  ((∑ k : Fin D, agg (ix2 p k) * wl (ix2 k c)) + ∑ k : Fin D, x (ix2 p k) * wr (ix2 k c)) + b (ix2 0 c)

/-- The layer before any activation, as an `[N, C]` array. -/
def lin (agg x : FVec Ideal ⟨2, ![N, D]⟩ .f32) (wl wr : FVec Ideal ⟨2, ![D, C]⟩ .f32)
    (b : FVec Ideal ⟨2, ![1, C]⟩ .f32) : FVec Ideal ⟨2, ![N, C]⟩ .f32 :=
  fun j => linAt agg x wl wr b (j 0) (j 1)

theorem lin_apply (agg x : FVec Ideal ⟨2, ![N, D]⟩ .f32) (wl wr : FVec Ideal ⟨2, ![D, C]⟩ .f32)
    (b : FVec Ideal ⟨2, ![1, C]⟩ .f32) (p : Fin N) (c : Fin C) :
    lin agg x wl wr b (ix2 p c) = linAt agg x wl wr b p c := rfl

/-- The bias added between the two products instead of after them: the same number. -/
theorem linAt_comm (agg x : FVec Ideal ⟨2, ![N, D]⟩ .f32) (wl wr : FVec Ideal ⟨2, ![D, C]⟩ .f32)
    (b : FVec Ideal ⟨2, ![1, C]⟩ .f32) (p : Fin N) (c : Fin C) :
    ((∑ k : Fin D, agg (ix2 p k) * wl (ix2 k c)) + b (ix2 0 c)) + ∑ k : Fin D, x (ix2 p k) * wr (ix2 k c)
      = linAt agg x wl wr b p c := by
  unfold linAt
  exact add_right_comm _ _ _

/-- The supremum of row `p`. -/
def rowSup (y : FVec Ideal ⟨2, ![N, C]⟩ .f32) (p : Fin N) : EReal :=
  Finset.univ.sup fun k : Fin C => y (ix2 p k)

/-- Row-wise log-softmax at node `p` and class `c`. -/
def lsmAt (y : FVec Ideal ⟨2, ![N, C]⟩ .f32) (p : Fin N) (c : Fin C) : EReal :=
  (y (ix2 p c) - rowSup y p) - Ideal.log (∑ k : Fin C, Ideal.exp (y (ix2 p k) - rowSup y p))

/-- Row-wise log-softmax, as an `[N, C]` array. -/
def lsm (y : FVec Ideal ⟨2, ![N, C]⟩ .f32) : FVec Ideal ⟨2, ![N, C]⟩ .f32 :=
  fun j => lsmAt y (j 0) (j 1)

theorem lsm_apply (y : FVec Ideal ⟨2, ![N, C]⟩ .f32) (p : Fin N) (c : Fin C) :
    lsm y (ix2 p c) = lsmAt y p c := rfl

end Cert.Layer

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Region0Payload.lean ====
/-
  The first layer's block computation, entry by entry.

  On one block of 2000 nodes the body forms, from the block of neighbourhood means `a`, the block of node features `x`,
  the two weight matrices `wl`, `wr` and the bias row `b`,
      (a · wl + x · wr) + b
  with both products accumulated into zero and the bias row repeated down the rows. Narrowing to a shorter float format
  changes nothing over the extended reals, and a reshape to the same shape is the identity. So at row `p` and column
  `c` the result is
      (∑ k, a p k · wl k c  +  ∑ k, x p k · wr k c)  +  b 0 c.
-/
import proofs.«105766_j16209206575326_1_alg».proof.Proof.Gen.KernelIdeal.Skeleton
import proofs.«105766_j16209206575326_1_alg».proof.Proof.LibPlainMatmul
import Idealize.ShloMosaic.Lib.Pipeline.Value
import Idealize.ShloMosaic.Lib.ValueLayout
import Idealize.ShloMosaic.Lib.ValueIdx

noncomputable section

namespace Cert.KernelIdeal.RegionValue

open Cert.KernelIdeal Cert.KernelIdeal.Gen Idealize.ShloMosaic Idealize.ShloMosaic.ValueIdx
open scoped BigOperators

/-- The products' dimension numbers are the plain ones: contract the left operand's columns with the right operand's rows. -/
theorem dot_2000_128_128_plain :
    dot_S2000x128_S128x128_S2000x128_1_0_0_1_n_n = DotDims.plain 2000 128 128 := rfl

/-- A `[2000, 128]` by `[128, 128]` product into zero, at row `p` and column `c`. -/
theorem product_2000_128_128_apply {φ₁ φ₂ : FTy} (W : FVec Ideal S2000x128 φ₁) (X : FVec Ideal S128x128 φ₂)
    (p : Fin 2000) (c : Fin 128) :
    matmul dot_S2000x128_S128x128_S2000x128_1_0_0_1_n_n none W X (constant (F := Ideal) S2000x128 .f32 0x00000000#32) (ix2 p c)
      = ∑ k : Fin 128, W (ix2 p k) * X (ix2 k c) := by
  rw [dot_2000_128_128_plain]
  exact Cert.LibPlainMatmul.matmul_zero_apply 2000 128 128 none W X p c

/-- The bias row repeated down 2000 rows, at row `p` and column `c`. -/
theorem biasRows_2000_128_apply (v : FVec Ideal S1x128 .f32) (p : Fin 2000) (c : Fin 128) :
    broadcastTo S2000x128 v broadcasts_S1x128_S2000x128 (ix2 p c) = v (ix2 (0 : Fin 1) c) :=
  broadcastTo_1b_ab_apply v broadcasts_S1x128_S2000x128 p c

/-- The first layer's block result at row `p` and column `c`. -/
theorem layer0_block_apply (x0 x1 : Vec Ideal S2000x128 .f32) (x2 x3 : Vec Ideal S128x128 .f32) (x4 : Vec Ideal S1x128 .f32)
    (p : Fin 2000) (c : Fin 128) :
    k0_pay1 (F := Ideal) x0 x1 x2 x3 x4 (ix2 p c)
      = ((∑ k : Fin 128, x0 (ix2 p k) * x2 (ix2 k c)) + ∑ k : Fin 128, x1 (ix2 p k) * x3 (ix2 k c)) + x4 (ix2 (0 : Fin 1) c) := by
  unfold k0_pay1
  refine congrArg₂ (· + ·) (congrArg₂ (· + ·) ?_ ?_) ?_
  · refine (product_2000_128_128_apply _ _ p c).trans ?_
    rw [shapeCast_self]
    rfl
  · exact product_2000_128_128_apply _ _ p c
  · refine (biasRows_2000_128_apply _ p c).trans ?_
    rw [shapeCast_self]

end Cert.KernelIdeal.RegionValue

end
-- ==== Proof.Region0.lean ====
/-
  The first layer over the whole node set, from its blocks of 2000 nodes.

  The 50000 nodes are cut into 25 consecutive blocks of 2000 rows. At block `t` the body is handed rows
  `2000·t … 2000·t + 1999` of the neighbourhood means and of the node features, the two weight matrices and the bias row
  whole, and writes rows `2000·t … 2000·t + 1999` of the result. Row `r` of a block is row `2000·t + r` of the array and
  the columns are not cut, so what block `t` writes is exactly rows `2000·t …` of the layer of the whole arrays. Every
  row `n` lies in block `n / 2000`, so the blocks cover the result, which therefore ends holding the layer of the whole
  arrays.
-/
import proofs.«105766_j16209206575326_1_alg».proof.Proof.Gen.KernelIdeal.Frame
import proofs.«105766_j16209206575326_1_alg».proof.Proof.Region0Payload
import proofs.«105766_j16209206575326_1_alg».proof.Proof.LayerSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Offsets `(0, 0)` are the zero offsets. -/
theorem offsets_zero : (![0, 0] : Fin 2 → Nat) = fun _ => 0 := funext fun a => by fin_cases a <;> rfl

/-- The block index of each window at block `t`: the two row-cut inputs and the result are at block row `t`, block
    column 0; the weights and the bias row are at block (0, 0) throughout. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the neighbourhood means is rows `2000·t …` of the array. -/
theorem meansBlock0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_v21 : S50000x128.Idx → EReal) k := by
  obtain ⟨e0, e1, -⟩ := blockIndex0 t
  unfold iblk0
  rw [View.read_apply]
  show V c main_v21 _ = V c main_v21 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- Block `t` of the node features is rows `2000·t …` of the array. -/
theorem featuresBlock0_apply (c : Dev nD) (t : Fin cfg0.N) (x : S2000x128.Idx) (k : S50000x128.Idx)
    (hk0 : (k 0).val = 2000 * t.val + (x 0).val) (hk1 : (k 1).val = (x 1).val) :
    (iblk0 V c 1 t : Vec Ideal S2000x128 .f32) x = (V c main_arg0 : S50000x128.Idx → EReal) k := by
  obtain ⟨-, -, e0, e1, -⟩ := blockIndex0 t
  unfold iblk0
  rw [View.read_apply]
  show V c main_arg0 _ = V c main_arg0 _
  congr 1
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 128 + 1 * (x 1).val = (k 1).val; rw [e1, hk1]; omega

/-- The left weights are handed over whole at every block. -/
theorem leftWeightsBlock0_eq (c : Dev nD) (t : Fin cfg0.N) :
    (iblk0 V c 2 t : Vec Ideal S128x128 .f32) = (V c main_arg3 : S128x128.Idx → EReal) := by
  obtain ⟨-, -, -, -, e0, e1, -⟩ := blockIndex0 t
  funext x
  unfold iblk0
  rw [View.read_apply]
  show V c main_arg3 _ = V c main_arg3 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The right weights are handed over whole at every block. -/
theorem rightWeightsBlock0_eq (c : Dev nD) (t : Fin cfg0.N) :
    (iblk0 V c 3 t : Vec Ideal S128x128 .f32) = (V c main_arg5 : S128x128.Idx → EReal) := by
  obtain ⟨-, -, -, -, -, -, e0, e1, -⟩ := blockIndex0 t
  funext x
  unfold iblk0
  rw [View.read_apply]
  show V c main_arg5 _ = V c main_arg5 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The bias row is handed over whole at every block. -/
theorem biasBlock0_eq (c : Dev nD) (t : Fin cfg0.N) :
    (iblk0 V c 4 t : Vec Ideal S1x128 .f32) = (V c main_v22 : S1x128.Idx → EReal) := by
  obtain ⟨-, -, -, -, -, -, -, -, e0, e1, -⟩ := blockIndex0 t
  funext x
  unfold iblk0
  rw [View.read_apply]
  show V c main_v22 _ = V c main_v22 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- The body's result on blocks that are rows `2000·t …` of whole arrays (weights and bias whole) is rows `2000·t …`
    of the layer of the whole arrays. -/
theorem layer0_block_eq_lin (A X : FVec Ideal S50000x128 .f32) (Wl Wr : FVec Ideal S128x128 .f32) (b : FVec Ideal S1x128 .f32)
    (x0 x1 : Vec Ideal S2000x128 .f32) (x2 x3 : Vec Ideal S128x128 .f32) (x4 : Vec Ideal S1x128 .f32) (t : ℕ)
    (h0 : ∀ (x : S2000x128.Idx) (k : S50000x128.Idx), (k 0).val = 2000 * t + (x 0).val → (k 1).val = (x 1).val → x0 x = A k)
    (h1 : ∀ (x : S2000x128.Idx) (k : S50000x128.Idx), (k 0).val = 2000 * t + (x 0).val → (k 1).val = (x 1).val → x1 x = X k)
    (h2 : x2 = Wl) (h3 : x3 = Wr) (h4 : x4 = b)
    (j : S2000x128.Idx) (i : S50000x128.Idx) (hi0 : (i 0).val = 2000 * t + (j 0).val) (hi1 : (i 1).val = (j 1).val) :
    k0_pay1 (F := Ideal) x0 x1 x2 x3 x4 j = Cert.Layer.lin A X Wl Wr b i := by
  subst h2 h3 h4
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  have e0 : ∀ k : Fin 128, x0 (ix2 p k) = A (ix2 r k) := fun k => h0 (ix2 p k) (ix2 r k) hi0 rfl
  have e1 : ∀ k : Fin 128, x1 (ix2 p k) = X (ix2 r k) := fun k => h1 (ix2 p k) (ix2 r k) hi0 rfl
  rw [layer0_block_apply, Cert.Layer.lin_apply]
  unfold Cert.Layer.linAt
  simp only [e0, e1]

/-- The first layer of the whole arrays as the region finds them. -/
abbrev layer0 (c : Dev nD) : S50000x128.Idx → EReal :=
  Cert.Layer.lin (V c main_v21 : S50000x128.Idx → EReal) (V c main_arg0 : S50000x128.Idx → EReal)
    (V c main_arg3 : S128x128.Idx → EReal) (V c main_arg5 : S128x128.Idx → EReal) (V c main_v22 : S1x128.Idx → EReal)

/-- What block `t` writes back is rows `2000·t …` of the layer of the whole arrays. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero offsets_zero]
  simp only [View.ld_unit_zero (S := S2000x128) offsets_zero, View.ld_unit_zero (S := S128x128) offsets_zero,
    View.ld_unit_zero (S := S1x128) offsets_zero]
  obtain ⟨-, -, -, -, -, -, -, -, -, -, e0, e1⟩ := blockIndex0 t
  funext j
  show k0_pay1 (F := Ideal) (iblk0 V c 0 t) (iblk0 V c 1 t) (iblk0 V c 2 t) (iblk0 V c 3 t) (iblk0 V c 4 t) j
    = layer0 V c (((cfg0.win 5).blk t).view.emb j)
  refine layer0_block_eq_lin (V c main_v21) (V c main_arg0) (V c main_arg3) (V c main_arg5) (V c main_v22)
    (iblk0 V c 0 t) (iblk0 V c 1 t) (iblk0 V c 2 t) (iblk0 V c 3 t) (iblk0 V c 4 t) t.val
    (meansBlock0_apply V c t) (featuresBlock0_apply V c t) (leftWeightsBlock0_eq V c t) (rightWeightsBlock0_eq V c t)
    (biasBlock0_eq V c t) j (((cfg0.win 5).blk t).view.emb j) ?_ ?_
  · show win0_5.index t (0 : Fin 2) * 2000 + 1 * (j 0).val = 2000 * t.val + (j 0).val
    rw [e0]; omega
  · show win0_5.index t (1 : Fin 2) * 128 + 1 * (j 1).val = (j 1).val
    rw [e1]; omega

/-- A node is in block `t` of the result iff each of its coordinates is in the block's range. -/
theorem mem_resultBlock0 (t : Fin cfg0.N) (i : S50000x128.Idx) :
    i ∈ ((cfg0.win 5).blk t).view.set
      ↔ ∀ a : Fin 2, win0_5.index t a * S2000x128.size a ≤ (i a).val
          ∧ (i a).val < win0_5.index t a * S2000x128.size a + S2000x128.size a := by
  show i ∈ ((View.whole main_v23).slice (win0_5.rect t)).set ↔ _
  rw [View.set_slice_whole, Rect.mem_set_unit]
  exact Iff.rfl

/-- Every entry of the result is written by some block: row `n` by block `n / 2000`. -/
theorem cover0 (i : S50000x128.Idx) :
    ∃ t : Fin cfg0.N, (cfg0.win 5).flush t = true ∧ i ∈ ((cfg0.win 5).blk t).view.set := by
  have hN : cfg0.N = 25 := N_0
  have hi0 : (i 0).val < 50000 := idx2_lt0 i
  have hi1 : (i 1).val < 128 := idx2_lt1 i
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := blockIndex0 t
  refine ⟨t, flush0_5 t, ?_⟩
  rw [mem_resultBlock0]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- After the region the result array holds the first layer of the whole arrays as the region found them. -/
theorem final0 (c : Dev nD) :
    (dat0 (F := Ideal) V c).arrAt 5 cfg0.N
      = Cert.Layer.lin (V c main_v21 : S50000x128.Idx → EReal) (V c main_arg0 : S50000x128.Idx → EReal)
          (V c main_arg3 : S128x128.Idx → EReal) (V c main_arg5 : S128x128.Idx → EReal) (V c main_v22 : S1x128.Idx → EReal) :=
  (dat0 (F := Ideal) V c).arrAt_eq_of_cover 5 (layer0 V c) (fun t _ => flushed0_eq V c t) cover0

end Cert.KernelIdeal.RegionValue

end
-- ==== Proof.Region1Payload.lean ====
/-
  The second layer's block computation, entry by entry.

  The same computation as the first layer's on a block of 2000 nodes: from the block of neighbourhood means `a`, the
  block of node features `x`, the weight matrices `wl`, `wr` and the bias row `b`,
      (a · wl + x · wr) + b,
  both products accumulated into zero, the bias row repeated down the rows; here both row blocks pass through a reshape
  to their own shape first, which is the identity. At row `p` and column `c` the result is
      (∑ k, a p k · wl k c  +  ∑ k, x p k · wr k c)  +  b 0 c.
-/
import proofs.«105766_j16209206575326_1_alg».proof.Proof.Region0Payload

noncomputable section

namespace Cert.KernelIdeal.RegionValue

open Cert.KernelIdeal Cert.KernelIdeal.Gen Idealize.ShloMosaic Idealize.ShloMosaic.ValueIdx
open scoped BigOperators

/-- The second layer's block result at row `p` and column `c`. -/
theorem layer1_block_apply (x0 x1 : Vec Ideal S2000x128 .f32) (x2 x3 : Vec Ideal S128x128 .f32) (x4 : Vec Ideal S1x128 .f32)
    (p : Fin 2000) (c : Fin 128) :
    k1_pay1 (F := Ideal) x0 x1 x2 x3 x4 (ix2 p c)
      = ((∑ k : Fin 128, x0 (ix2 p k) * x2 (ix2 k c)) + ∑ k : Fin 128, x1 (ix2 p k) * x3 (ix2 k c)) + x4 (ix2 (0 : Fin 1) c) := by
  unfold k1_pay1
  refine congrArg₂ (· + ·) (congrArg₂ (· + ·) ?_ ?_) ?_
  · refine (product_2000_128_128_apply _ _ p c).trans ?_
    rw [shapeCast_self]
    rfl
  · refine (product_2000_128_128_apply _ _ p c).trans ?_
    rw [shapeCast_self]
    rfl
  · refine (biasRows_2000_128_apply _ p c).trans ?_
    rw [shapeCast_self]

end Cert.KernelIdeal.RegionValue

end
-- ==== Proof.Region1.lean ====
/-
  The second layer over the whole node set, from its blocks of 2000 nodes.

  The 50000 nodes are cut into 25 consecutive blocks of 2000 rows. At block `t` the body is handed rows
  `2000·t … 2000·t + 1999` of the neighbourhood means and of the node features, the two weight matrices and the bias row
  whole, and writes rows `2000·t … 2000·t + 1999` of the result. Row `r` of a block is row `2000·t + r` of the array and
  the columns are not cut, so what block `t` writes is exactly rows `2000·t …` of the layer of the whole arrays. Every
  row `n` lies in block `n / 2000`, so the blocks cover the result, which therefore ends holding the layer of the whole
  arrays.
-/
import proofs.«105766_j16209206575326_1_alg».proof.Proof.Gen.KernelIdeal.Frame
import proofs.«105766_j16209206575326_1_alg».proof.Proof.Region1Payload
import proofs.«105766_j16209206575326_1_alg».proof.Proof.Region0
import proofs.«105766_j16209206575326_1_alg».proof.Proof.LayerSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The block index of each window at block `t`: the two row-cut inputs and the result are at block row `t`, block
    column 0; the weights and the bias row are at block (0, 0) throughout. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the neighbourhood means is rows `2000·t …` of the array. -/
theorem meansBlock1_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v43 : S50000x128.Idx → EReal) k := by
  obtain ⟨e0, e1, -⟩ := blockIndex1 t
  unfold iblk1
  rw [View.read_apply]
  show V c main_v43 _ = V c main_v43 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- Block `t` of the node features is rows `2000·t …` of the array. -/
theorem featuresBlock1_apply (c : Dev nD) (t : Fin cfg1.N) (x : S2000x128.Idx) (k : S50000x128.Idx)
    (hk0 : (k 0).val = 2000 * t.val + (x 0).val) (hk1 : (k 1).val = (x 1).val) :
    (iblk1 V c 1 t : Vec Ideal S2000x128 .f32) x = (V c main_v25 : S50000x128.Idx → EReal) k := by
  obtain ⟨-, -, e0, e1, -⟩ := blockIndex1 t
  unfold iblk1
  rw [View.read_apply]
  show V c main_v25 _ = V c main_v25 _
  congr 1
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 128 + 1 * (x 1).val = (k 1).val; rw [e1, hk1]; omega

/-- The left weights are handed over whole at every block. -/
theorem leftWeightsBlock1_eq (c : Dev nD) (t : Fin cfg1.N) :
    (iblk1 V c 2 t : Vec Ideal S128x128 .f32) = (V c main_arg6 : S128x128.Idx → EReal) := by
  obtain ⟨-, -, -, -, e0, e1, -⟩ := blockIndex1 t
  funext x
  unfold iblk1
  rw [View.read_apply]
  show V c main_arg6 _ = V c main_arg6 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The right weights are handed over whole at every block. -/
theorem rightWeightsBlock1_eq (c : Dev nD) (t : Fin cfg1.N) :
    (iblk1 V c 3 t : Vec Ideal S128x128 .f32) = (V c main_arg8 : S128x128.Idx → EReal) := by
  obtain ⟨-, -, -, -, -, -, e0, e1, -⟩ := blockIndex1 t
  funext x
  unfold iblk1
  rw [View.read_apply]
  show V c main_arg8 _ = V c main_arg8 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The bias row is handed over whole at every block. -/
theorem biasBlock1_eq (c : Dev nD) (t : Fin cfg1.N) :
    (iblk1 V c 4 t : Vec Ideal S1x128 .f32) = (V c main_v44 : S1x128.Idx → EReal) := by
  obtain ⟨-, -, -, -, -, -, -, -, e0, e1, -⟩ := blockIndex1 t
  funext x
  unfold iblk1
  rw [View.read_apply]
  show V c main_v44 _ = V c main_v44 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The body's result on blocks that are rows `2000·t …` of whole arrays (weights and bias whole) is rows `2000·t …`
    of the layer of the whole arrays. -/
theorem layer1_block_eq_lin (A X : FVec Ideal S50000x128 .f32) (Wl Wr : FVec Ideal S128x128 .f32) (b : FVec Ideal S1x128 .f32)
    (x0 x1 : Vec Ideal S2000x128 .f32) (x2 x3 : Vec Ideal S128x128 .f32) (x4 : Vec Ideal S1x128 .f32) (t : ℕ)
    (h0 : ∀ (x : S2000x128.Idx) (k : S50000x128.Idx), (k 0).val = 2000 * t + (x 0).val → (k 1).val = (x 1).val → x0 x = A k)
    (h1 : ∀ (x : S2000x128.Idx) (k : S50000x128.Idx), (k 0).val = 2000 * t + (x 0).val → (k 1).val = (x 1).val → x1 x = X k)
    (h2 : x2 = Wl) (h3 : x3 = Wr) (h4 : x4 = b)
    (j : S2000x128.Idx) (i : S50000x128.Idx) (hi0 : (i 0).val = 2000 * t + (j 0).val) (hi1 : (i 1).val = (j 1).val) :
    k1_pay1 (F := Ideal) x0 x1 x2 x3 x4 j = Cert.Layer.lin A X Wl Wr b i := by
  subst h2 h3 h4
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  have e0 : ∀ k : Fin 128, x0 (ix2 p k) = A (ix2 r k) := fun k => h0 (ix2 p k) (ix2 r k) hi0 rfl
  have e1 : ∀ k : Fin 128, x1 (ix2 p k) = X (ix2 r k) := fun k => h1 (ix2 p k) (ix2 r k) hi0 rfl
  rw [layer1_block_apply, Cert.Layer.lin_apply]
  unfold Cert.Layer.linAt
  simp only [e0, e1]

/-- The second layer of the whole arrays as the region finds them. -/
abbrev layer1 (c : Dev nD) : S50000x128.Idx → EReal :=
  Cert.Layer.lin (V c main_v43 : S50000x128.Idx → EReal) (V c main_v25 : S50000x128.Idx → EReal)
    (V c main_arg6 : S128x128.Idx → EReal) (V c main_arg8 : S128x128.Idx → EReal) (V c main_v44 : S1x128.Idx → EReal)

/-- What block `t` writes back is rows `2000·t …` of the layer of the whole arrays. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero offsets_zero]
  simp only [View.ld_unit_zero (S := S2000x128) offsets_zero, View.ld_unit_zero (S := S128x128) offsets_zero,
    View.ld_unit_zero (S := S1x128) offsets_zero]
  obtain ⟨-, -, -, -, -, -, -, -, -, -, e0, e1⟩ := blockIndex1 t
  funext j
  show k1_pay1 (F := Ideal) (iblk1 V c 0 t) (iblk1 V c 1 t) (iblk1 V c 2 t) (iblk1 V c 3 t) (iblk1 V c 4 t) j
    = layer1 V c (((cfg1.win 5).blk t).view.emb j)
  refine layer1_block_eq_lin (V c main_v43) (V c main_v25) (V c main_arg6) (V c main_arg8) (V c main_v44)
    (iblk1 V c 0 t) (iblk1 V c 1 t) (iblk1 V c 2 t) (iblk1 V c 3 t) (iblk1 V c 4 t) t.val
    (meansBlock1_apply V c t) (featuresBlock1_apply V c t) (leftWeightsBlock1_eq V c t) (rightWeightsBlock1_eq V c t)
    (biasBlock1_eq V c t) j (((cfg1.win 5).blk t).view.emb j) ?_ ?_
  · show win1_5.index t (0 : Fin 2) * 2000 + 1 * (j 0).val = 2000 * t.val + (j 0).val
    rw [e0]; omega
  · show win1_5.index t (1 : Fin 2) * 128 + 1 * (j 1).val = (j 1).val
    rw [e1]; omega

/-- A node is in block `t` of the result iff each of its coordinates is in the block's range. -/
theorem mem_resultBlock1 (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v45).slice (win1_5.rect t)).set ↔ _
  rw [View.set_slice_whole, Rect.mem_set_unit]
  exact Iff.rfl

/-- Every entry of the result is written by some block: row `n` by block `n / 2000`. -/
theorem cover1 (i : S50000x128.Idx) :
    ∃ t : Fin cfg1.N, (cfg1.win 5).flush t = true ∧ i ∈ ((cfg1.win 5).blk t).view.set := by
  have hN : cfg1.N = 25 := N_1
  have hi0 : (i 0).val < 50000 := idx2_lt0 i
  have hi1 : (i 1).val < 128 := idx2_lt1 i
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := blockIndex1 t
  refine ⟨t, flush1_5 t, ?_⟩
  rw [mem_resultBlock1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- After the region the result array holds the second layer of the whole arrays as the region found them. -/
theorem final1 (c : Dev nD) :
    (dat1 (F := Ideal) V c).arrAt 5 cfg1.N
      = Cert.Layer.lin (V c main_v43 : S50000x128.Idx → EReal) (V c main_v25 : S50000x128.Idx → EReal)
          (V c main_arg6 : S128x128.Idx → EReal) (V c main_arg8 : S128x128.Idx → EReal) (V c main_v44 : S1x128.Idx → EReal) :=
  (dat1 (F := Ideal) V c).arrAt_eq_of_cover 5 (layer1 V c) (fun t _ => flushed1_eq V c t) cover1

end Cert.KernelIdeal.RegionValue

end
-- ==== Proof.LibMaxReduce.lean ====
import Idealize.ShloMosaic.PureOps.Ideal.Laws

/-!
# A maximum over one axis as a supremum

A fold of `max` over a finite set, started from `b`, is the larger of `b` and the supremum of the set; so a
`maximumf` reduction over one axis of a vector of extended reals, read at an index, is the larger of the
accumulator's value and the supremum over that axis's coordinates, and the supremum alone when the accumulator is `-∞`.
-/

noncomputable section

namespace Cert.Lib

open Idealize.ShloMosaic

/-- A fold of `max` from `b` over a finite set is `max b` of the supremum of the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih, max_left_comm]

/-- A `maximumf` reduction over ONE axis of a vector of extended reals, read at an index `j` of the result: the larger
    of the accumulator's value and the supremum, over the reduced axis's coordinates `k`, of the source at `j` with
    `k` inserted (`Shape.Reduces.lift`). -/
theorem multiReduction_maximumf_single_sup {s t : Shape} {a : Fin s.rank} {φ : FTy} (src : FVec Ideal s φ)
    (acc : BitVec φ.bits) (h : s.Reduces [a] t) (hφ : FKind.Formats φ) (hacc : acc = FKind.maximumf.neutral φ hφ)
    (j : t.Idx) :
    multiReduction .maximumf [a] t src acc h hφ hacc j
      = max (Ideal.ofBits φ acc) (Finset.univ.sup fun k : Fin (s.size a) => src (h.lift j k)) :=
  (Ideal.multiReduction_maximumf_single src acc h hφ hacc j).trans (fold_max_eq_max_sup _ _ _)

/-- The same when the accumulator's value is `-∞` (`hb`): the supremum alone. -/
theorem multiReduction_maximumf_single_sup_of_bot {s t : Shape} {a : Fin s.rank} {φ : FTy} (src : FVec Ideal s φ)
    (acc : BitVec φ.bits) (h : s.Reduces [a] t) (hφ : FKind.Formats φ) (hacc : acc = FKind.maximumf.neutral φ hφ)
    (hb : Ideal.ofBits φ acc = ⊥) (j : t.Idx) :
    multiReduction .maximumf [a] t src acc h hφ hacc j
      = Finset.univ.sup fun k : Fin (s.size a) => src (h.lift j k) := by
  rw [multiReduction_maximumf_single_sup, hb]
  exact max_eq_right bot_le

end Cert.Lib

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.Region2Payload.lean ====
/-
  The last layer's block arithmetic, entry by entry, on the extended reals.

  A block holds 2000 nodes. From the block's rows of the neighbourhood means and of the node features, the two whole
  weight matrices `[128, 64]` and the bias row `[1, 64]`, the body first forms the pre-activation
      y p c = (∑ k, agg p k · wl k c + ∑ k, x p k · wr k c) + b 0 c
  (two products into zero accumulators, added, plus the bias row spread over the rows; narrowing the operands' format
  changes nothing on the extended reals), then the row-wise log-softmax of `y`: with `m p` the supremum of row `p` over
  its 64 columns, `(y p c − m p) − log (∑ k, exp (y p k − m p))`. Both the supremum and the sum run over the columns of
  ONE row, so an entry of the result depends on row `p` of the block's inputs only.
-/
import proofs.«105766_j16209206575326_1_alg».proof.Proof.Gen.KernelIdeal.Skeleton
import proofs.«105766_j16209206575326_1_alg».proof.Proof.LayerSpec
import proofs.«105766_j16209206575326_1_alg».proof.Proof.LibPlainMatmul
import proofs.«105766_j16209206575326_1_alg».proof.Proof.LibMaxReduce
import proofs.«105766_j16209206575326_1_alg».proof.Proof.LibColumnBroadcast
import proofs.«105766_j16209206575326_1_alg».proof.Proof.LibUnitAxisCasts
import Idealize.ShloMosaic.Lib.ValueLayout

noncomputable section

namespace Cert.KernelIdeal.RegionValue

open Cert.KernelIdeal Cert.KernelIdeal.Gen Idealize.ShloMosaic Idealize.ShloMosaic.ValueIdx
open scoped BigOperators

/-! ## The pre-activation of a block -/

/-- The contraction of the block's two products: the left operand's columns against the right operand's rows. -/
theorem dot2_eq_plain : dot_S2000x128_S128x64_S2000x64_1_0_0_1_n_n = DotDims.plain 2000 128 64 := rfl

/-- One product of the block: `[2000, 128]` rows against a `[128, 64]` weight matrix, into a zero accumulator, the
    operands narrowed first. -/
def prodBlock (x : Vec Ideal S2000x128 .f32) (w : Vec Ideal S128x64 .f32) : FVec Ideal S2000x64 .f32 :=
  matmul dot_S2000x128_S128x64_S2000x64_1_0_0_1_n_n none
    (truncf .bf16 (shapeCast S2000x128 x shapeCasts_S2000x128_S2000x128) bitsLt_bf16_f32)
    (truncf .bf16 w bitsLt_bf16_f32) (constant (F := Ideal) S2000x64 .f32 0x00000000#32)

/-- The block's pre-activation: the two products added, plus the bias row spread over the 2000 rows. -/
def preBlock (x0 x1 : Vec Ideal S2000x128 .f32) (x2 x3 : Vec Ideal S128x64 .f32) (x4 : Vec Ideal S1x64 .f32) :
    FVec Ideal S2000x64 .f32 :=
  addf (addf (prodBlock x0 x2) (prodBlock x1 x3))
    (broadcastTo S2000x64 (shapeCast S1x64 x4 shapeCasts_S1x64_S1x64) broadcasts_S1x64_S2000x64)

/-- A product of the block at row `p` and column `c`: the sum over the 128 features. -/
theorem prodBlock_apply (x : Vec Ideal S2000x128 .f32) (w : Vec Ideal S128x64 .f32) (p : Fin 2000) (c : Fin 64) :
    prodBlock x w (ix2 p c) = ∑ k : Fin 128, x (ix2 p k) * w (ix2 k c) := by
  unfold prodBlock
  rw [dot2_eq_plain, shapeCast_self]
  exact Cert.LibPlainMatmul.matmul_zero_apply 2000 128 64 none _ _ p c

/-- The pre-activation at row `p` and column `c` is the layer's, of the block's own rows. -/
theorem preBlock_apply (x0 x1 : Vec Ideal S2000x128 .f32) (x2 x3 : Vec Ideal S128x64 .f32) (x4 : Vec Ideal S1x64 .f32)
    (p : Fin 2000) (c : Fin 64) :
    preBlock x0 x1 x2 x3 x4 (ix2 p c) = Cert.Layer.linAt x0 x1 x2 x3 x4 p c := by
  unfold preBlock Cert.Layer.linAt
  rw [addf_apply, addf_apply, prodBlock_apply, prodBlock_apply, shapeCast_self]
  exact congrArg _ (broadcastTo_1b_ab_apply x4 broadcasts_S1x64_S2000x64 p c)

/-- So the pre-activation of a block is the layer's array of the block's own rows. -/
theorem preBlock_eq (x0 x1 : Vec Ideal S2000x128 .f32) (x2 x3 : Vec Ideal S128x64 .f32) (x4 : Vec Ideal S1x64 .f32) :
    preBlock x0 x1 x2 x3 x4 = Cert.Layer.lin x0 x1 x2 x3 x4 := by
  funext j
  obtain ⟨p, c, rfl⟩ : ∃ (p : Fin 2000) (c : Fin 64), j = ix2 p c := ⟨j 0, j 1, eq_ix2 j⟩
  exact preBlock_apply x0 x1 x2 x3 x4 p c

/-! ## The row-wise log-softmax of a block -/

/-- The word of `-∞`. -/
theorem ofBits_neg_inf : Ideal.ofBits .f32 0xFF800000#32 = ⊥ := by simp [Ideal.ofBits, Ideal.ieee]

/-- Row `p`'s index with column `k` inserted. -/
theorem lift_row (p : Fin 2000) (k : Fin 64) : reduces_S2000x64_S2000.lift (ix1 p) k = ix2 p k := by
  funext a; apply Fin.ext
  match a with
  | ⟨0, _⟩ => rfl
  | ⟨1, _⟩ => rfl

/-- Each row's maximum over its 64 columns, kept as a column and spread back over the columns. -/
def rowMaxBlock (y : FVec Ideal S2000x64 .f32) : FVec Ideal S2000x64 .f32 :=
  broadcastTo S2000x64
    (shapeCast S2000x1 (multiReduction (F := Ideal) .maximumf [1] S2000 y 0xFF800000#32 reduces_S2000x64_S2000 (.inl rfl) rfl)
      shapeCasts_S2000_S2000x1)
    broadcasts_S2000x1_S2000x64

/-- The logarithm of each row's sum of exponentials over its 64 columns, spread back over the columns. -/
def logSumExpBlock (z : FVec Ideal S2000x64 .f32) : FVec Ideal S2000x64 .f32 :=
  broadcastTo S2000x64
    (log (shapeCast S2000x1 (multiReduction (F := Ideal) .add [1] S2000 (exp z) 0x00000000#32 reduces_S2000x64_S2000 (.inl rfl) rfl)
      shapeCasts_S2000_S2000x1))
    broadcasts_S2000x1_S2000x64

/-- The block's log-softmax: the row maximum subtracted, then the logarithm of the row's sum of exponentials. -/
def lsmBlock (y : FVec Ideal S2000x64 .f32) : FVec Ideal S2000x64 .f32 :=
  subf (subf y (rowMaxBlock y)) (logSumExpBlock (subf y (rowMaxBlock y)))

/-- The body's arithmetic is the log-softmax of the pre-activation: the same operations, named. -/
theorem k2_pay1_eq (x0 x1 : Vec Ideal S2000x128 .f32) (x2 x3 : Vec Ideal S128x64 .f32) (x4 : Vec Ideal S1x64 .f32) :
    k2_pay1 (F := Ideal) x0 x1 x2 x3 x4 = lsmBlock (preBlock x0 x1 x2 x3 x4) := rfl

/-- The spread row maximum at `(p, c)` is the supremum of row `p`, whatever `c`. -/
theorem rowMaxBlock_apply (y : FVec Ideal S2000x64 .f32) (p : Fin 2000) (c : Fin 64) :
    rowMaxBlock y (ix2 p c) = Cert.Layer.rowSup y p := by
  unfold rowMaxBlock Cert.Layer.rowSup
  refine (Cert.LibColumnBroadcast.broadcastTo_a1_ab_apply _ broadcasts_S2000x1_S2000x64 p c).trans ?_
  refine (Cert.LibUnitAxisCasts.shapeCast_a_a1_apply _ shapeCasts_S2000_S2000x1 p).trans ?_
  refine (Cert.Lib.multiReduction_maximumf_single_sup_of_bot y 0xFF800000#32 reduces_S2000x64_S2000 (.inl rfl) rfl
    ofBits_neg_inf (ix1 p)).trans ?_
  exact Finset.sup_congr rfl fun k _ => congrArg y (lift_row p k)

/-- The spread logarithm of the row's sum of exponentials at `(p, c)`, whatever `c`. -/
theorem logSumExpBlock_apply (z : FVec Ideal S2000x64 .f32) (p : Fin 2000) (c : Fin 64) :
    logSumExpBlock z (ix2 p c) = Ideal.log (∑ k : Fin 64, Ideal.exp (z (ix2 p k))) := by
  unfold logSumExpBlock
  refine (Cert.LibColumnBroadcast.broadcastTo_a1_ab_apply _ broadcasts_S2000x1_S2000x64 p c).trans ?_
  show Ideal.log (shapeCast S2000x1 _ shapeCasts_S2000_S2000x1 (ix2 p (0 : Fin 1))) = _
  refine congrArg Ideal.log ?_
  refine (Cert.LibUnitAxisCasts.shapeCast_a_a1_apply _ shapeCasts_S2000_S2000x1 p).trans ?_
  refine (Ideal.multiReduction_add_single (exp z) 0x00000000#32 reduces_S2000x64_S2000 (.inl rfl) rfl (ix1 p)).trans ?_
  exact Finset.sum_congr rfl fun k _ => congrArg (fun i => Ideal.exp (z i)) (lift_row p k)

/-- The block's log-softmax at row `p` and column `c` is the row-wise log-softmax of the block's array there. -/
theorem lsmBlock_apply (y : FVec Ideal S2000x64 .f32) (p : Fin 2000) (c : Fin 64) :
    lsmBlock y (ix2 p c) = Cert.Layer.lsmAt y p c := by
  unfold lsmBlock Cert.Layer.lsmAt
  rw [subf_apply, subf_apply, logSumExpBlock_apply, rowMaxBlock_apply]
  refine congrArg (fun s => (y (ix2 p c) - Cert.Layer.rowSup y p) - Ideal.log s) ?_
  exact Finset.sum_congr rfl fun k _ => by rw [subf_apply, rowMaxBlock_apply]

/-- THE BODY'S RESULT at row `p` and column `c` of a block: the row-wise log-softmax of the layer's pre-activation of
    the block's own rows. -/
theorem k2_pay1_apply (x0 x1 : Vec Ideal S2000x128 .f32) (x2 x3 : Vec Ideal S128x64 .f32) (x4 : Vec Ideal S1x64 .f32)
    (p : Fin 2000) (c : Fin 64) :
    k2_pay1 (F := Ideal) x0 x1 x2 x3 x4 (ix2 p c) = Cert.Layer.lsmAt (Cert.Layer.lin x0 x1 x2 x3 x4) p c := by
  rw [k2_pay1_eq, preBlock_eq]
  exact lsmBlock_apply _ p c

/-- The body's result, as an array: the row-wise log-softmax of the layer's pre-activation of the block's rows. -/
theorem k2_pay1_eq_lsm (x0 x1 : Vec Ideal S2000x128 .f32) (x2 x3 : Vec Ideal S128x64 .f32) (x4 : Vec Ideal S1x64 .f32) :
    k2_pay1 (F := Ideal) x0 x1 x2 x3 x4 = Cert.Layer.lsm (Cert.Layer.lin x0 x1 x2 x3 x4) := by
  funext j
  obtain ⟨p, c, rfl⟩ : ∃ (p : Fin 2000) (c : Fin 64), j = ix2 p c := ⟨j 0, j 1, eq_ix2 j⟩
  exact k2_pay1_apply x0 x1 x2 x3 x4 p c

end Cert.KernelIdeal.RegionValue

end
-- ==== Proof.Region2Rows.lean ====
/-
  Row-locality of the last layer.

  An entry `(p, c)` of the layer's pre-activation reads row `p` of the neighbourhood means and of the node features,
  the two weight matrices and the bias row, and nothing else; the row-wise log-softmax at `(p, c)` reads row `p` of the
  pre-activation only — its supremum and its sum of exponentials run over the columns of that one row. So if a block of
  `n` nodes carries, at its row `r`, row `R` of the whole arrays (with the same weights and bias), the block's
  log-softmax at `(r, c)` is the whole arrays' at `(R, c)`.
-/
import proofs.«105766_j16209206575326_1_alg».proof.Proof.LayerSpec

noncomputable section

namespace Cert.Layer

open Idealize.ShloMosaic Idealize.ShloMosaic.ValueIdx
open scoped BigOperators

variable {N n D C : ℕ}

/-- The pre-activation at `(r, k)` of arrays that carry, at row `r`, row `R` of other arrays, is those arrays' at `(R, k)`. -/
theorem linAt_rows (agg x : FVec Ideal ⟨2, ![N, D]⟩ .f32) (agg' x' : FVec Ideal ⟨2, ![n, D]⟩ .f32)
    (wl wr wl' wr' : FVec Ideal ⟨2, ![D, C]⟩ .f32) (b b' : FVec Ideal ⟨2, ![1, C]⟩ .f32) (r : Fin n) (R : Fin N)
    (hagg : ∀ k : Fin D, agg' (ix2 r k) = agg (ix2 R k)) (hx : ∀ k : Fin D, x' (ix2 r k) = x (ix2 R k))
    (hwl : ∀ (k : Fin D) (c : Fin C), wl' (ix2 k c) = wl (ix2 k c))
    (hwr : ∀ (k : Fin D) (c : Fin C), wr' (ix2 k c) = wr (ix2 k c))
    (hb : ∀ c : Fin C, b' (ix2 0 c) = b (ix2 0 c)) (k : Fin C) :
    linAt agg' x' wl' wr' b' r k = linAt agg x wl wr b R k := by
  unfold linAt
  rw [hb k, Finset.sum_congr rfl fun j _ => show agg' (ix2 r j) * wl' (ix2 j k) = agg (ix2 R j) * wl (ix2 j k) by
      rw [hagg j, hwl j k],
    Finset.sum_congr rfl fun j _ => show x' (ix2 r j) * wr' (ix2 j k) = x (ix2 R j) * wr (ix2 j k) by
      rw [hx j, hwr j k]]

/-- ROW-LOCALITY: the log-softmax of the pre-activation at `(r, c)` of arrays that carry, at row `r`, row `R` of other
    arrays, is those arrays' at `(R, c)`. -/
theorem lsmAt_lin_rows (agg x : FVec Ideal ⟨2, ![N, D]⟩ .f32) (agg' x' : FVec Ideal ⟨2, ![n, D]⟩ .f32)
    (wl wr wl' wr' : FVec Ideal ⟨2, ![D, C]⟩ .f32) (b b' : FVec Ideal ⟨2, ![1, C]⟩ .f32) (r : Fin n) (R : Fin N)
    (hagg : ∀ k : Fin D, agg' (ix2 r k) = agg (ix2 R k)) (hx : ∀ k : Fin D, x' (ix2 r k) = x (ix2 R k))
    (hwl : ∀ (k : Fin D) (c : Fin C), wl' (ix2 k c) = wl (ix2 k c))
    (hwr : ∀ (k : Fin D) (c : Fin C), wr' (ix2 k c) = wr (ix2 k c))
    (hb : ∀ c : Fin C, b' (ix2 0 c) = b (ix2 0 c)) (c c' : Fin C) (hc : c' = c) :
    lsmAt (lin agg' x' wl' wr' b') r c' = lsmAt (lin agg x wl wr b) R c := by
  subst hc
  have hy : ∀ k : Fin C, lin agg' x' wl' wr' b' (ix2 r k) = lin agg x wl wr b (ix2 R k) := fun k => by
    rw [lin_apply, lin_apply]
    exact linAt_rows agg x agg' x' wl wr wl' wr' b b' r R hagg hx hwl hwr hb k
  have hs : rowSup (lin agg' x' wl' wr' b') r = rowSup (lin agg x wl wr b) R := by
    unfold rowSup
    exact Finset.sup_congr rfl fun k _ => hy k
  unfold lsmAt
  rw [hs, hy c', Finset.sum_congr rfl fun k _ =>
    show Ideal.exp (lin agg' x' wl' wr' b' (ix2 r k) - rowSup (lin agg x wl wr b) R)
      = Ideal.exp (lin agg x wl wr b (ix2 R k) - rowSup (lin agg x wl wr b) R) by rw [hy k]]

end Cert.Layer

end
-- ==== Proof.Region2.lean ====
/-
  The last layer: from the blocks of 2000 nodes to the whole `[50000, 64]` array.

  Grid point `t` (of 25) stages rows `2000·t … 2000·t + 1999` of the neighbourhood means and of the node features, the
  whole two weight matrices and the whole bias row, and writes back rows `2000·t … 2000·t + 1999` of the result. Row `r`
  of a staged block is row `2000·t + r` of its array, and the body's result at `(r, c)` — the row-wise log-softmax of the
  layer's pre-activation — reads row `r` of the staged blocks only; so what point `t` writes back is block `t` of the
  row-wise log-softmax of the pre-activation of the WHOLE arrays. The 25 blocks tile the 50000 rows (row `i` lies in
  block `i / 2000`), so the array ends holding that function.
-/
import proofs.«105766_j16209206575326_1_alg».proof.Proof.Gen.KernelIdeal.Frame
import proofs.«105766_j16209206575326_1_alg».proof.Proof.Region2Payload
import proofs.«105766_j16209206575326_1_alg».proof.Proof.Region2Rows
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem zero_offsets2 : (![0, 0] : Fin 2 → Nat) = fun _ => 0 := funext fun a => by fin_cases a <;> rfl

/-- The block indices at grid point `t`, decided over the 25 points: the two row-blocked inputs and the output sit at
    row block `t`, column block 0; the weights and the bias row are whole (block 0 on both axes). -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## Each staged block as rows of its array -/

/-- Row `r` of the neighbourhood means' block at point `t` is row `2000·t + r` of the array. -/
theorem aggBlock_apply (c : Dev nD) (t : Fin cfg2.N) (r : Fin 2000) (k : Fin 128) (R : Fin 50000)
    (hR : R.val = 2000 * t.val + r.val) :
    (iblk2 V c 0 t : Vec Ideal S2000x128 .f32) (ix2 r k) = (V c main_v76 : S50000x128.Idx → EReal) (ix2 R k) := by
  obtain ⟨e0, e1, -⟩ := block_indices2 t
  show V c main_v76 (((cfg2.win 0).blk t).view.emb (ix2 r k)) = V c main_v76 (ix2 R k)
  refine congrArg (V c main_v76) (funext fun a => Fin.ext ?_)
  match a with
  | ⟨0, _⟩ => show win2_0.index t (0 : Fin 2) * 2000 + 1 * r.val = R.val; omega
  | ⟨1, _⟩ => show win2_0.index t (1 : Fin 2) * 128 + 1 * k.val = k.val; omega

/-- Row `r` of the node features' block at point `t` is row `2000·t + r` of the array. -/
theorem xBlock_apply (c : Dev nD) (t : Fin cfg2.N) (r : Fin 2000) (k : Fin 128) (R : Fin 50000)
    (hR : R.val = 2000 * t.val + r.val) :
    (iblk2 V c 1 t : Vec Ideal S2000x128 .f32) (ix2 r k) = (V c main_v47 : S50000x128.Idx → EReal) (ix2 R k) := by
  obtain ⟨-, -, e0, e1, -⟩ := block_indices2 t
  show V c main_v47 (((cfg2.win 1).blk t).view.emb (ix2 r k)) = V c main_v47 (ix2 R k)
  refine congrArg (V c main_v47) (funext fun a => Fin.ext ?_)
  match a with
  | ⟨0, _⟩ => show win2_1.index t (0 : Fin 2) * 2000 + 1 * r.val = R.val; omega
  | ⟨1, _⟩ => show win2_1.index t (1 : Fin 2) * 128 + 1 * k.val = k.val; omega

/-- The first weight matrix is staged whole. -/
theorem wlBlock_apply (c : Dev nD) (t : Fin cfg2.N) (k : Fin 128) (q : Fin 64) :
    (iblk2 V c 2 t : Vec Ideal S128x64 .f32) (ix2 k q) = (V c main_arg9 : S128x64.Idx → EReal) (ix2 k q) := by
  obtain ⟨-, -, -, -, e0, e1, -⟩ := block_indices2 t
  show V c main_arg9 (((cfg2.win 2).blk t).view.emb (ix2 k q)) = V c main_arg9 (ix2 k q)
  refine congrArg (V c main_arg9) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

/-- The second weight matrix is staged whole. -/
theorem wrBlock_apply (c : Dev nD) (t : Fin cfg2.N) (k : Fin 128) (q : Fin 64) :
    (iblk2 V c 3 t : Vec Ideal S128x64 .f32) (ix2 k q) = (V c main_arg11 : S128x64.Idx → EReal) (ix2 k q) := by
  obtain ⟨-, -, -, -, -, -, e0, e1, -⟩ := block_indices2 t
  show V c main_arg11 (((cfg2.win 3).blk t).view.emb (ix2 k q)) = V c main_arg11 (ix2 k q)
  refine congrArg (V c main_arg11) (funext fun a => Fin.ext ?_)
  match a with
  | ⟨0, _⟩ => show win2_3.index t (0 : Fin 2) * 128 + 1 * k.val = k.val; omega
  | ⟨1, _⟩ => show win2_3.index t (1 : Fin 2) * 64 + 1 * q.val = q.val; omega

/-- The bias row is staged whole. -/
theorem biasBlock_apply (c : Dev nD) (t : Fin cfg2.N) (q : Fin 64) :
    (iblk2 V c 4 t : Vec Ideal S1x64 .f32) (ix2 (0 : Fin 1) q) = (V c main_v77 : S1x64.Idx → EReal) (ix2 (0 : Fin 1) q) := by
  obtain ⟨-, -, -, -, -, -, -, -, e0, e1, -⟩ := block_indices2 t
  show V c main_v77 (((cfg2.win 4).blk t).view.emb (ix2 (0 : Fin 1) q)) = V c main_v77 (ix2 (0 : Fin 1) q)
  refine congrArg (V c main_v77) (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 64 + 1 * q.val = q.val; omega

/-! ## What a point writes back -/

/-- The last layer of the whole arrays as the region finds them: the row-wise log-softmax of the pre-activation. -/
abbrev lastLayer (c : Dev nD) : S50000x64.Idx → EReal :=
  Cert.Layer.lsm (Cert.Layer.lin (V c main_v76 : S50000x128.Idx → EReal) (V c main_v47 : S50000x128.Idx → EReal)
    (V c main_arg9 : S128x64.Idx → EReal) (V c main_arg11 : S128x64.Idx → EReal) (V c main_v77 : S1x64.Idx → EReal))

/-- WHAT POINT `t` WRITES BACK is block `t` of the last layer of the whole arrays: row `r` of the block is row
    `2000·t + r` of the arrays, and the result at `(r, c)` reads that row only. -/
theorem flushed5_eq (c : Dev nD) (t : Fin cfg2.N) :
    (dat2 (F := Ideal) V c).flushed 5 t = ((cfg2.win 5).blk t).view.read (Elt Ideal) (lastLayer V c) := by
  show (cfg2.win 5).cut (grid2.coords t) ((dat2 (F := Ideal) V c).after 5 t) = _
  rw [after2_5]
  unfold out2_5
  rw [View.canon_unit_zero zero_offsets2]
  simp only [View.ld_unit_zero (S := S2000x128) zero_offsets2, View.ld_unit_zero (S := S128x64) zero_offsets2,
    View.ld_unit_zero (S := S1x64) zero_offsets2]
  rw [k2_pay1_eq_lsm]
  obtain ⟨-, -, -, -, -, -, -, -, -, -, e0, e1⟩ := block_indices2 t
  funext j
  show Cert.Layer.lsmAt (Cert.Layer.lin (iblk2 V c 0 t : Vec Ideal S2000x128 .f32) (iblk2 V c 1 t : Vec Ideal S2000x128 .f32)
      (iblk2 V c 2 t : Vec Ideal S128x64 .f32) (iblk2 V c 3 t : Vec Ideal S128x64 .f32) (iblk2 V c 4 t : Vec Ideal S1x64 .f32))
      (j 0) (j 1)
    = Cert.Layer.lsmAt (Cert.Layer.lin (V c main_v76 : S50000x128.Idx → EReal) (V c main_v47 : S50000x128.Idx → EReal)
      (V c main_arg9 : S128x64.Idx → EReal) (V c main_arg11 : S128x64.Idx → EReal) (V c main_v77 : S1x64.Idx → EReal))
      ((((cfg2.win 5).blk t).view.emb j) 0) ((((cfg2.win 5).blk t).view.emb j) 1)
  have hj0 : (j 0).val < 2000 := (j 0).isLt
  have hj1 : (j 1).val < 64 := (j 1).isLt
  have hR : ((((cfg2.win 5).blk t).view.emb j) 0).val = 2000 * t.val + (j 0).val := by
    show win2_5.index t (0 : Fin 2) * 2000 + 1 * (j 0).val = _; omega
  have hC : (((cfg2.win 5).blk t).view.emb j) 1 = j 1 := Fin.ext (by
    show win2_5.index t (1 : Fin 2) * 64 + 1 * (j 1).val = _; omega)
  exact Cert.Layer.lsmAt_lin_rows _ _ _ _ _ _ _ _ _ _ (j 0) ((((cfg2.win 5).blk t).view.emb j) 0)
    (fun k => aggBlock_apply V c t (j 0) k _ hR) (fun k => xBlock_apply V c t (j 0) k _ hR)
    (fun k q => wlBlock_apply V c t k q) (fun k q => wrBlock_apply V c t k q) (fun q => biasBlock_apply V c t q)
    ((((cfg2.win 5).blk t).view.emb j) 1) (j 1) hC.symm

/-! ## The blocks tile the rows -/

/-- An index of the array is in point `t`'s block iff each coordinate is in the block's range on its axis. -/
theorem mem_block5 (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v78).slice (win2_5.rect t)).set ↔ _
  rw [View.set_slice_whole, Rect.mem_set_unit]
  exact Iff.rfl

/-- Row `i` lies in the block of point `i / 2000`, which writes back. -/
theorem cover5 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 25 := N_2
  obtain ⟨-, -, -, -, -, -, -, -, -, -, e0, e1⟩ := block_indices2 ⟨(i 0).val / 2000, by omega⟩
  refine ⟨⟨(i 0).val / 2000, by omega⟩, flush2_5 _, ?_⟩
  rw [mem_block5]
  intro a
  match a with
  | ⟨0, _⟩ =>
    show win2_5.index ⟨(i 0).val / 2000, _⟩ (0 : Fin 2) * 2000 ≤ (i 0).val
      ∧ (i 0).val < win2_5.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, _⟩ (1 : Fin 2) * 64 ≤ (i 1).val
      ∧ (i 1).val < win2_5.index ⟨(i 0).val / 2000, _⟩ (1 : Fin 2) * 64 + 64
    rw [e1]; omega

/-- THE ARRAY after the region: the row-wise log-softmax of the layer's pre-activation of the arrays the region found. -/
theorem final2 (c : Dev nD) :
    (dat2 (F := Ideal) V c).arrAt 5 cfg2.N
      = Cert.Layer.lsm (Cert.Layer.lin (V c main_v76 : S50000x128.Idx → EReal) (V c main_v47 : S50000x128.Idx → EReal)
          (V c main_arg9 : S128x64.Idx → EReal) (V c main_arg11 : S128x64.Idx → EReal) (V c main_v77 : S1x64.Idx → EReal)) :=
  (dat2 (F := Ideal) V c).arrAt_eq_of_cover 5 (lastLayer V c) (fun t _ => flushed5_eq V c t) cover5

end Cert.KernelIdeal.RegionValue

end
-- ==== Proof.KernelValue.lean ====
import proofs.«105766_j16209206575326_1_alg».proof.Proof.KernelStages
import proofs.«105766_j16209206575326_1_alg».proof.Proof.LayerSpec
import proofs.«105766_j16209206575326_1_alg».proof.Proof.Region0
import proofs.«105766_j16209206575326_1_alg».proof.Proof.Region1
import proofs.«105766_j16209206575326_1_alg».proof.Proof.Region2

set_option maxRecDepth 16384

noncomputable section

/-!
  The idealized kernel program's three results as named functions of its arguments.

  Each dense layer's output array is the layer function of the arrays it was handed (the block-by-block closed form),
  and each stretch of host operations hands the next layer the neighbourhood mean, the rectified previous output, the
  weights and the bias row. Composing these along the program gives the second hidden layer's output, the per-graph
  means of its rectification, and the class log-probabilities.
-/
namespace Cert.KernelIdeal.Results

open Cert.KernelIdeal Cert.KernelIdeal.Gen
open Idealize.ShloMosaic Idealize.ShloMosaic.TcCoe Idealize.SL.Sem Idealize.ShloMosaic.StableHlo

section
variable (a0 : (⟨S50000x128, .f32⟩ : BufTy).Contents (Elt Ideal)) (a1 : (⟨S2x600000, .i32⟩ : BufTy).Contents (Elt Ideal)) (a2 : (⟨S50000, .i32⟩ : BufTy).Contents (Elt Ideal))
    (a3 : (⟨S128x128, .f32⟩ : BufTy).Contents (Elt Ideal)) (a4 : (⟨S128, .f32⟩ : BufTy).Contents (Elt Ideal)) (a5 : (⟨S128x128, .f32⟩ : BufTy).Contents (Elt Ideal))
    (a6 : (⟨S128x128, .f32⟩ : BufTy).Contents (Elt Ideal)) (a7 : (⟨S128, .f32⟩ : BufTy).Contents (Elt Ideal)) (a8 : (⟨S128x128, .f32⟩ : BufTy).Contents (Elt Ideal))
    (a9 : (⟨S128x64, .f32⟩ : BufTy).Contents (Elt Ideal)) (a10 : (⟨S64, .f32⟩ : BufTy).Contents (Elt Ideal)) (a11 : (⟨S128x64, .f32⟩ : BufTy).Contents (Elt Ideal))

/-- The first hidden layer's output, of the node features `a0`, the edge list `a1` and the first layer's parameters. -/
def out0F : (⟨S50000x128, .f32⟩ : BufTy).Contents (Elt Ideal) :=
  Cert.Layer.lin (Glue.agg a0 (Glue.src a1) (Glue.dst a1)) a0 a3 a5 (shapeCast _ a4 shapeCasts_S128_S1x128)

/-- The second hidden layer's output, of the rectified first. -/
def out1F : (⟨S50000x128, .f32⟩ : BufTy).Contents (Elt Ideal) :=
  Cert.Layer.lin (Glue.agg (Glue.relu (out0F a0 a1 a3 a4 a5)) (Glue.src a1) (Glue.dst a1)) (Glue.relu (out0F a0 a1 a3 a4 a5)) a6 a8 (shapeCast _ a7 shapeCasts_S128_S1x128)

/-- The class log-probabilities: the last layer of the rectified second output, under a row-wise log-softmax. -/
def logpF : (⟨S50000x64, .f32⟩ : BufTy).Contents (Elt Ideal) :=
  Cert.Layer.lsm (Cert.Layer.lin (Glue.agg (Glue.relu (out1F a0 a1 a3 a4 a5 a6 a7 a8)) (Glue.src a1) (Glue.dst a1)) (Glue.relu (out1F a0 a1 a3 a4 a5 a6 a7 a8)) a9 a11 (shapeCast _ a10 shapeCasts_S64_S1x64))

/-- The per-graph means (graph ids `a2`) of the rectified second output. -/
def pooledF : (⟨S512x128, .f32⟩ : BufTy).Contents (Elt Ideal) :=
  Glue.pool (Glue.relu (out1F a0 a1 a3 a4 a5 a6 a7 a8)) a2

end

variable (m : (ℓ : Loc nD τ sig) → Buf (Elt Ideal) ℓ) (ρ : Dev nD → PrngReg) (c : Dev nD)

/-- The four composed values at the program's argument arrays. -/
abbrev srcs : (⟨S600000, .i32⟩ : BufTy).Contents (Elt Ideal) := Glue.src (m ((c : Thread nD τ).loc main_arg1))
abbrev dsts : (⟨S600000, .i32⟩ : BufTy).Contents (Elt Ideal) := Glue.dst (m ((c : Thread nD τ).loc main_arg1))
abbrev out0 : (⟨S50000x128, .f32⟩ : BufTy).Contents (Elt Ideal) := out0F (m ((c : Thread nD τ).loc main_arg0)) (m ((c : Thread nD τ).loc main_arg1)) (m ((c : Thread nD τ).loc main_arg3)) (m ((c : Thread nD τ).loc main_arg4)) (m ((c : Thread nD τ).loc main_arg5))
abbrev out1 : (⟨S50000x128, .f32⟩ : BufTy).Contents (Elt Ideal) := out1F (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev logp : (⟨S50000x64, .f32⟩ : BufTy).Contents (Elt Ideal) := logpF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
abbrev pooled : (⟨S512x128, .f32⟩ : BufTy).Contents (Elt Ideal) := pooledF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## After the first dense layer -/

theorem w2_out : W2 m ρ c (Proc.devRef .tc main_v23) = out0 m c := by
  have h := (W2_arr m ρ c 5).trans (Cert.KernelIdeal.RegionValue.final0 (V1 m ρ) c)
  rw [Stages.s0_agg, Stages.s0_x, Stages.s0_wl, Stages.s0_wr, Stages.s0_bias] at h
  exact h

theorem w2_src : W2 m ρ c (Proc.devRef .tc main_v1) = srcs m c :=
  (W2_of_ne m ρ c main_v1 (by decide)).trans (Stages.s0_src m ρ c)
theorem w2_dst : W2 m ρ c (Proc.devRef .tc main_v3) = dsts m c :=
  (W2_of_ne m ρ c main_v3 (by decide)).trans (Stages.s0_dst m ρ c)
theorem w2_arg2 : W2 m ρ c (Proc.devRef .tc main_arg2) = (m ((c : Thread nD τ).loc main_arg2)) :=
  (W2_of_ne m ρ c main_arg2 (by decide)).trans (Stages.s0_arg2 m ρ c)
theorem w2_arg6 : W2 m ρ c (Proc.devRef .tc main_arg6) = (m ((c : Thread nD τ).loc main_arg6)) :=
  (W2_of_ne m ρ c main_arg6 (by decide)).trans (Stages.s0_arg6 m ρ c)
theorem w2_arg7 : W2 m ρ c (Proc.devRef .tc main_arg7) = (m ((c : Thread nD τ).loc main_arg7)) :=
  (W2_of_ne m ρ c main_arg7 (by decide)).trans (Stages.s0_arg7 m ρ c)
theorem w2_arg8 : W2 m ρ c (Proc.devRef .tc main_arg8) = (m ((c : Thread nD τ).loc main_arg8)) :=
  (W2_of_ne m ρ c main_arg8 (by decide)).trans (Stages.s0_arg8 m ρ c)
theorem w2_arg9 : W2 m ρ c (Proc.devRef .tc main_arg9) = (m ((c : Thread nD τ).loc main_arg9)) :=
  (W2_of_ne m ρ c main_arg9 (by decide)).trans (Stages.s0_arg9 m ρ c)
theorem w2_arg10 : W2 m ρ c (Proc.devRef .tc main_arg10) = (m ((c : Thread nD τ).loc main_arg10)) :=
  (W2_of_ne m ρ c main_arg10 (by decide)).trans (Stages.s0_arg10 m ρ c)
theorem w2_arg11 : W2 m ρ c (Proc.devRef .tc main_arg11) = (m ((c : Thread nD τ).loc main_arg11)) :=
  (W2_of_ne m ρ c main_arg11 (by decide)).trans (Stages.s0_arg11 m ρ c)

/-! ## After the second dense layer -/

theorem w4_out : W4 m ρ c (Proc.devRef .tc main_v45) = out1 m c := by
  have h := (W4_arr m ρ c 5).trans (Cert.KernelIdeal.RegionValue.final1 (V3 m ρ) c)
  rw [Stages.s1_agg, Stages.s1_x, Stages.s1_wl, Stages.s1_wr, Stages.s1_bias, w2_out, w2_src, w2_dst, w2_arg6, w2_arg7, w2_arg8] at h
  exact h

theorem w4_src : W4 m ρ c (Proc.devRef .tc main_v1) = srcs m c :=
  (W4_of_ne m ρ c main_v1 (by decide)).trans ((Stages.s1_src m ρ c).trans (w2_src m ρ c))
theorem w4_dst : W4 m ρ c (Proc.devRef .tc main_v3) = dsts m c :=
  (W4_of_ne m ρ c main_v3 (by decide)).trans ((Stages.s1_dst m ρ c).trans (w2_dst m ρ c))
theorem w4_arg2 : W4 m ρ c (Proc.devRef .tc main_arg2) = (m ((c : Thread nD τ).loc main_arg2)) :=
  (W4_of_ne m ρ c main_arg2 (by decide)).trans ((Stages.s1_arg2 m ρ c).trans (w2_arg2 m ρ c))
theorem w4_arg9 : W4 m ρ c (Proc.devRef .tc main_arg9) = (m ((c : Thread nD τ).loc main_arg9)) :=
  (W4_of_ne m ρ c main_arg9 (by decide)).trans ((Stages.s1_arg9 m ρ c).trans (w2_arg9 m ρ c))
theorem w4_arg10 : W4 m ρ c (Proc.devRef .tc main_arg10) = (m ((c : Thread nD τ).loc main_arg10)) :=
  (W4_of_ne m ρ c main_arg10 (by decide)).trans ((Stages.s1_arg10 m ρ c).trans (w2_arg10 m ρ c))
theorem w4_arg11 : W4 m ρ c (Proc.devRef .tc main_arg11) = (m ((c : Thread nD τ).loc main_arg11)) :=
  (W4_of_ne m ρ c main_arg11 (by decide)).trans ((Stages.s1_arg11 m ρ c).trans (w2_arg11 m ρ c))

/-! ## At the end -/

theorem w6_logp : W6 m ρ c (Proc.devRef .tc main_v78) = logp m c := by
  have h := (W6_arr m ρ c 5).trans (Cert.KernelIdeal.RegionValue.final2 (V5 m ρ) c)
  rw [Stages.s2_agg, Stages.s2_x, Stages.s2_wl, Stages.s2_wr, Stages.s2_bias, w4_out, w4_src, w4_dst, w4_arg9, w4_arg10, w4_arg11] at h
  exact h

theorem w6_out1 : W6 m ρ c (Proc.devRef .tc main_v45) = out1 m c :=
  (W6_of_ne m ρ c main_v45 (by decide)).trans ((Stages.s2_out1 m ρ c).trans (w4_out m ρ c))

theorem w6_pooled : W6 m ρ c (Proc.devRef .tc main_v58) = pooled m c := by
  refine (W6_of_ne m ρ c main_v58 (by decide)).trans ((Stages.s2_pool m ρ c).trans ?_)
  rw [w4_out, w4_arg2]
  rfl

end Cert.KernelIdeal.Results

end
-- ==== Proof.GlueReference.lean ====
/-
  The host-side operations both programs apply around the dense layers, each named once as a function of whole arrays:
  the edge list's two rows, an index below zero counted from the end, the mean of the neighbours' rows (a gather by
  source, a scatter-add by destination, divided by the in-degree with empty neighbourhoods counted as one), the
  rectifier, and the mean of the node rows of each graph. They are compositions of the program's own operations and
  are never opened: a proof only needs that both programs apply the same ones to equal arrays.
-/
import proofs.«105766_j16209206575326_1_alg».proof.Proof.Gen.ReferenceIdeal

noncomputable section

namespace Cert.ReferenceIdeal.Glue

open Cert.ReferenceIdeal Cert.ReferenceIdeal.Gen Idealize.ShloMosaic

variable {F : FTy → Type} [FloatOps F]

/-- Row `r` of the edge list, as a vector of 600000 node ids. -/
def src (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

def dst (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A node id below zero counts from the end. -/
def wrap (s : (⟨S600000, .i32⟩ : BufTy).Contents (Elt F)) : (⟨S600000, .i32⟩ : BufTy).Contents (Elt F) :=
  select (cmpi .slt s (broadcastInDim S600000 ![] bcast_S_S600000 (constantI S_ 32 0#32))) (addi s (broadcastInDim S600000 ![] bcast_S_S600000 (constantI S_ 32 50000#32))) s

/-- The mean over each node's incoming edges of the source node's row. -/
def agg (x : (⟨S50000x128, .f32⟩ : BufTy).Contents (Elt F)) (s d : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 d) (Host.gather gather_S50000x128_S600000x1_S600000x128_1_0_n_n_0_1_1128 x (broadcastInDim S600000x1 ![0] bcast_S600000_S600000x1_0 (wrap s)))) (broadcastInDim S50000x128 ![0, 1] bcast_S50000x1_S50000x128_0_1 (maximumf (Host.scatterAdd scatter_S50000x1_S600000x1_S600000x1_1_0_0_1 (broadcastInDim S50000x1 ![] bcast_S_S50000x1 (constant S_ .f32 0x00000000#32)) (broadcastInDim S600000x1 ![0] bcast_S600000_S600000x1_0 d) (broadcastInDim S600000x1 ![] bcast_S_S600000x1 (constant S_ .f32 0x3F800000#32))) (broadcastInDim S50000x1 ![] bcast_S_S50000x1 (constant S_ .f32 0x3F800000#32))))

/-- The rectifier: the larger of each entry and zero. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The mean of the node rows of each of the 512 graphs. -/
def pool (x : (⟨S50000x128, .f32⟩ : BufTy).Contents (Elt F)) (cl : (⟨S50000, .i32⟩ : BufTy).Contents (Elt F)) :
    (⟨S512x128, .f32⟩ : BufTy).Contents (Elt F) :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 cl) x) (broadcastInDim S512x128 ![0, 1] bcast_S512x1_S512x128_0_1 (maximumf (Host.scatterAdd scatter_S512x1_S50000x1_S50000x1_1_0_0_1 (broadcastInDim S512x1 ![] bcast_S_S512x1 (constant S_ .f32 0x00000000#32)) (broadcastInDim S50000x1 ![0] bcast_S50000_S50000x1_0 cl) (broadcastInDim S50000x1 ![] bcast_S_S50000x1 (constant S_ .f32 0x3F800000#32))) (broadcastInDim S512x1 ![] bcast_S_S512x1 (constant S_ .f32 0x3F800000#32))))

end Cert.ReferenceIdeal.Glue

end
-- ==== Proof.RefForms.lean ====
/-
  The reference's dense layers, each named once as a function of whole arrays in the reference's own operations: a
  matrix product, the bias row stretched over the nodes and added, the second product added; and the row-wise
  log-softmax as the host computes it: the row maximum (taken once more against minus infinity, which changes nothing),
  the shifted entries, the logarithm of the sum of their exponentials, subtracted.
-/
import proofs.«105766_j16209206575326_1_alg».proof.Proof.Gen.ReferenceIdeal

noncomputable section

namespace Cert.ReferenceIdeal.Forms

open Cert.ReferenceIdeal Cert.ReferenceIdeal.Gen Idealize.ShloMosaic

variable {F : FTy → Type} [FloatOps F]

/-- A bias vector as a one-row array. -/
def biasRow128 (b : (⟨S128, .f32⟩ : BufTy).Contents (Elt F)) : (⟨S1x128, .f32⟩ : BufTy).Contents (Elt F) :=
  broadcastInDim S1x128 ![1] bcast_S128_S1x128_1 b

def biasRow64 (b : (⟨S64, .f32⟩ : BufTy).Contents (Elt F)) : (⟨S1x64, .f32⟩ : BufTy).Contents (Elt F) :=
  broadcastInDim S1x64 ![1] bcast_S64_S1x64_1 b

/-- A hidden layer: `agg · wl + b + x · wr`. -/
def lin128 (agg x : (⟨S50000x128, .f32⟩ : BufTy).Contents (Elt F)) (wl : (⟨S128x128, .f32⟩ : BufTy).Contents (Elt F))
    (b : (⟨S128, .f32⟩ : BufTy).Contents (Elt F)) (wr : (⟨S128x128, .f32⟩ : BufTy).Contents (Elt F)) :
    (⟨S50000x128, .f32⟩ : BufTy).Contents (Elt F) :=
  addf (addf (Host.dotGeneral dot_S50000x128_S128x128_S50000x128_1_0_0_1_n_n none agg wl) (broadcastInDim S50000x128 ![0, 1] bcast_S1x128_S50000x128_0_1 (biasRow128 b))) (Host.dotGeneral dot_S50000x128_S128x128_S50000x128_1_0_0_1_n_n none x wr)

/-- The last layer before its log-softmax. -/
def lin64 (agg x : (⟨S50000x128, .f32⟩ : BufTy).Contents (Elt F)) (wl : (⟨S128x64, .f32⟩ : BufTy).Contents (Elt F))
    (b : (⟨S64, .f32⟩ : BufTy).Contents (Elt F)) (wr : (⟨S128x64, .f32⟩ : BufTy).Contents (Elt F)) :
    (⟨S50000x64, .f32⟩ : BufTy).Contents (Elt F) :=
  addf (addf (Host.dotGeneral dot_S50000x128_S128x64_S50000x64_1_0_0_1_n_n none agg wl) (broadcastInDim S50000x64 ![0, 1] bcast_S1x64_S50000x64_0_1 (biasRow64 b))) (Host.dotGeneral dot_S50000x128_S128x64_S50000x64_1_0_0_1_n_n none x wr)

/-- Each row's maximum, stretched back over the row. -/
def rowMax (y : (⟨S50000x64, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf y (constant S_ .f32 0xFF800000#32) reducesTo_S50000x64_S50000_d1 h_S_)))

/-- The row-wise log-softmax. -/
def lsm (y : (⟨S50000x64, .f32⟩ : BufTy).Contents (Elt F)) : (⟨S50000x64, .f32⟩ : BufTy).Contents (Elt F) :=
  subf (subf y (rowMax y)) (broadcastInDim S50000x64 ![0, 1] bcast_S50000x1_S50000x64_0_1 (Host.log (broadcastInDim S50000x1 ![0] bcast_S50000_S50000x1_0 (Host.reduceAdd (Host.exp (subf y (rowMax y))) (constant S_ .f32 0x00000000#32) reducesTo_S50000x64_S50000_d1 h_S_))))

end Cert.ReferenceIdeal.Forms

end
-- ==== Proof.RefResults.lean ====
/-
  The reference program's three results named as functions of its twelve argument arrays: the neighbourhood mean and a
  dense layer; the rectifier, the neighbourhood mean and a second dense layer; the per-graph mean of the rectified
  second output; and the rectifier, the neighbourhood mean, the last dense layer and a row-wise log-softmax.
-/
import proofs.«105766_j16209206575326_1_alg».proof.Proof.GlueReference
import proofs.«105766_j16209206575326_1_alg».proof.Proof.RefForms

noncomputable section

namespace Cert.ReferenceIdeal.Results

open Cert.ReferenceIdeal Cert.ReferenceIdeal.Gen
open Idealize.ShloMosaic Idealize.ShloMosaic.TcCoe Idealize.SL.Sem

variable {F : FTy → Type} [FloatOps F]

section
variable (a0 : (⟨S50000x128, .f32⟩ : BufTy).Contents (Elt F)) (a1 : (⟨S2x600000, .i32⟩ : BufTy).Contents (Elt F)) (a2 : (⟨S50000, .i32⟩ : BufTy).Contents (Elt F))
    (a3 : (⟨S128x128, .f32⟩ : BufTy).Contents (Elt F)) (a4 : (⟨S128, .f32⟩ : BufTy).Contents (Elt F)) (a5 : (⟨S128x128, .f32⟩ : BufTy).Contents (Elt F))
    (a6 : (⟨S128x128, .f32⟩ : BufTy).Contents (Elt F)) (a7 : (⟨S128, .f32⟩ : BufTy).Contents (Elt F)) (a8 : (⟨S128x128, .f32⟩ : BufTy).Contents (Elt F))
    (a9 : (⟨S128x64, .f32⟩ : BufTy).Contents (Elt F)) (a10 : (⟨S64, .f32⟩ : BufTy).Contents (Elt F)) (a11 : (⟨S128x64, .f32⟩ : BufTy).Contents (Elt F))

/-- The first hidden layer's output, of the node features `a0`, the edge list `a1` and the first layer's parameters. -/
def out0F : (⟨S50000x128, .f32⟩ : BufTy).Contents (Elt F) :=
  Forms.lin128 (Glue.agg a0 (Glue.src a1) (Glue.dst a1)) a0 a3 a4 a5

/-- The second hidden layer's output, of the rectified first. -/
def out1F : (⟨S50000x128, .f32⟩ : BufTy).Contents (Elt F) :=
  Forms.lin128 (Glue.agg (Glue.relu (out0F a0 a1 a3 a4 a5)) (Glue.src a1) (Glue.dst a1)) (Glue.relu (out0F a0 a1 a3 a4 a5)) a6 a7 a8

/-- The class log-probabilities: the last layer of the rectified second output, under a row-wise log-softmax. -/
def logpF : (⟨S50000x64, .f32⟩ : BufTy).Contents (Elt F) :=
  Forms.lsm (Forms.lin64 (Glue.agg (Glue.relu (out1F a0 a1 a3 a4 a5 a6 a7 a8)) (Glue.src a1) (Glue.dst a1)) (Glue.relu (out1F a0 a1 a3 a4 a5 a6 a7 a8)) a9 a10 a11)

/-- The per-graph means (graph ids `a2`) of the rectified second output. -/
def pooledF : (⟨S512x128, .f32⟩ : BufTy).Contents (Elt F) :=
  Glue.pool (Glue.relu (out1F a0 a1 a3 a4 a5 a6 a7 a8)) a2

end

variable (m : (ℓ : Loc nD τ sig) → Buf (Elt F) ℓ) (c : Dev nD)

/-- The composed values at the program's argument arrays. -/
abbrev out1 : (⟨S50000x128, .f32⟩ : BufTy).Contents (Elt F) := out1F (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
abbrev logp : (⟨S50000x64, .f32⟩ : BufTy).Contents (Elt F) := logpF (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev pooled : (⟨S512x128, .f32⟩ : BufTy).Contents (Elt F) := pooledF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

end Cert.ReferenceIdeal.Results

end
-- ==== Proof.RefValue.lean ====
/-
  The reference program's three results as named functions of its arguments.

  The reference applies, in order: the neighbourhood mean and a dense layer to the node features; the rectifier, the
  neighbourhood mean and a second dense layer; the per-graph mean of the rectified second output; and the rectifier, the
  neighbourhood mean, the last dense layer and a row-wise log-softmax. Its run ends with every buffer at the fold of
  these operations over the launch contents; read at the three result buffers the fold is the composition below, and
  at an argument buffer it is the argument, which no operation writes.
-/
import proofs.«105766_j16209206575326_1_alg».proof.Proof.RefRun
import proofs.«105766_j16209206575326_1_alg».proof.Proof.RefResults

set_option maxRecDepth 16384

noncomputable section

namespace Cert.ReferenceIdeal.Results

open Cert.ReferenceIdeal Cert.ReferenceIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## The log-softmax call, read on its own

  The last 15 of the 130 operations are the row-wise log-softmax of the buffer the last dense layer wrote. A fold over
  a list cut in two is the fold over the second part of what the first part leaves, so those 15 operations are read
  over an arbitrary valuation `R`: they leave the log-softmax of what `R` holds in that buffer, and do not write it. -/

theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

theorem ops_cut : (RunP.ops : List (HloOp τ sig (Elt F))) = List.take 115 RunP.ops ++ List.drop 115 RunP.ops :=
  (List.take_append_drop 115 _).symm

/-- Carrying a value to a buffer's type and back is the identity, for any typed reference. -/
theorem ofBuf_toBuf {T : BufTy} (x : TRef sig T) (v : T.Contents (Elt F)) : x.ofBuf (x.toBuf v) = v := by
  obtain ⟨r, h, _, _⟩ := x
  subst h
  rfl

set_option maxHeartbeats 16000000 in
theorem tail_read (R : Valuation τ sig (Elt F)) :
    after (List.drop 115 (RunP.ops : List (HloOp τ sig (Elt F)))) R (Proc.devRef .tc main_v89)
      = Forms.lsm (R (Proc.devRef .tc main_v88) : (⟨S50000x64, .f32⟩ : BufTy).Contents (Elt F)) := by
  simp only [RunP.ops, List.drop_succ_cons, List.drop_zero]
  after_results_simp
  simp only [ofBuf_toBuf] <;> rfl

set_option maxHeartbeats 16000000 in
theorem tail_keep (R : Valuation τ sig (Elt F)) :
    after (List.drop 115 (RunP.ops : List (HloOp τ sig (Elt F)))) R (Proc.devRef .tc main_v88) = R (Proc.devRef .tc main_v88) := by
  simp only [RunP.ops, List.drop_succ_cons, List.drop_zero]
  after_results_simp <;> rfl

/-! ## The fold of the operations, read at the results and at the arguments -/

set_option maxHeartbeats 64000000 in
/-- The last dense layer's output, before the log-softmax. -/
theorem fold_pre : after RunP.ops (launchContents m c) (Proc.devRef .tc main_v88) = (Forms.lin64 (Glue.agg (Glue.relu (out1 m c)) (Glue.src (m ((c.tc : Thread nD τ).loc main_arg1))) (Glue.dst (m ((c.tc : Thread nD τ).loc main_arg1)))) (Glue.relu (out1 m c)) (m ((c.tc : Thread nD τ).loc main_arg9)) (m ((c.tc : Thread nD τ).loc main_arg10)) (m ((c.tc : Thread nD τ).loc main_arg11))) := by
  after_results_simp <;> rfl

theorem fold_logp : after RunP.ops (launchContents m c) (Proc.devRef .tc main_v89) = logp m c := by
  have h88 := fold_pre m c
  rw [ops_cut, after_append] at h88 ⊢
  generalize after (List.take 115 (RunP.ops : List (HloOp τ sig (Elt F)))) (launchContents m c) = R at h88 ⊢
  rw [tail_keep] at h88
  rw [tail_read, h88]
  rfl

set_option maxHeartbeats 64000000 in
theorem fold_out1 : after RunP.ops (launchContents m c) (Proc.devRef .tc main_v52) = out1 m c := by
  after_results_simp <;> rfl

set_option maxHeartbeats 64000000 in
theorem fold_pooled : after RunP.ops (launchContents m c) (Proc.devRef .tc main_v64) = pooled m c := by
  after_results_simp <;> rfl

set_option maxHeartbeats 16000000 in
theorem fold_arg0 : after RunP.ops (launchContents m c) (Proc.devRef .tc main_arg0) = m ((c.tc : Thread nD τ).loc main_arg0) := by
  after_results_simp <;> rfl
set_option maxHeartbeats 16000000 in
theorem fold_arg1 : after RunP.ops (launchContents m c) (Proc.devRef .tc main_arg1) = m ((c.tc : Thread nD τ).loc main_arg1) := by
  after_results_simp <;> rfl
set_option maxHeartbeats 16000000 in
theorem fold_arg2 : after RunP.ops (launchContents m c) (Proc.devRef .tc main_arg2) = m ((c.tc : Thread nD τ).loc main_arg2) := by
  after_results_simp <;> rfl
set_option maxHeartbeats 16000000 in
theorem fold_arg3 : after RunP.ops (launchContents m c) (Proc.devRef .tc main_arg3) = m ((c.tc : Thread nD τ).loc main_arg3) := by
  after_results_simp <;> rfl
set_option maxHeartbeats 16000000 in
theorem fold_arg4 : after RunP.ops (launchContents m c) (Proc.devRef .tc main_arg4) = m ((c.tc : Thread nD τ).loc main_arg4) := by
  after_results_simp <;> rfl
set_option maxHeartbeats 16000000 in
theorem fold_arg5 : after RunP.ops (launchContents m c) (Proc.devRef .tc main_arg5) = m ((c.tc : Thread nD τ).loc main_arg5) := by
  after_results_simp <;> rfl
set_option maxHeartbeats 16000000 in
theorem fold_arg6 : after RunP.ops (launchContents m c) (Proc.devRef .tc main_arg6) = m ((c.tc : Thread nD τ).loc main_arg6) := by
  after_results_simp <;> rfl
set_option maxHeartbeats 16000000 in
theorem fold_arg7 : after RunP.ops (launchContents m c) (Proc.devRef .tc main_arg7) = m ((c.tc : Thread nD τ).loc main_arg7) := by
  after_results_simp <;> rfl
set_option maxHeartbeats 16000000 in
theorem fold_arg8 : after RunP.ops (launchContents m c) (Proc.devRef .tc main_arg8) = m ((c.tc : Thread nD τ).loc main_arg8) := by
  after_results_simp <;> rfl
set_option maxHeartbeats 16000000 in
theorem fold_arg9 : after RunP.ops (launchContents m c) (Proc.devRef .tc main_arg9) = m ((c.tc : Thread nD τ).loc main_arg9) := by
  after_results_simp <;> rfl
set_option maxHeartbeats 16000000 in
theorem fold_arg10 : after RunP.ops (launchContents m c) (Proc.devRef .tc main_arg10) = m ((c.tc : Thread nD τ).loc main_arg10) := by
  after_results_simp <;> rfl
set_option maxHeartbeats 16000000 in
theorem fold_arg11 : after RunP.ops (launchContents m c) (Proc.devRef .tc main_arg11) = m ((c.tc : Thread nD τ).loc main_arg11) := by
  after_results_simp <;> rfl

/-! ## The run -/

/-- Every weakly fair execution of the reference terminates without a fault, with the three results at the composed
    values and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = logp m c
      ∧ r.2.mem ((c.tc : Thread nD τ).loc main_v52) = out1 m c
      ∧ r.2.mem ((c.tc : Thread nD τ).loc main_v64) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v89).trans (fold_logp m c), (h c main_v52).trans (fold_out1 m c),
      (h c main_v64).trans (fold_pooled m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c),
      (h c main_arg11).trans (fold_arg11 m c)⟩)
    (RunP.run_fold m ρ)

end Cert.ReferenceIdeal.Results

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.RefLayerLemmas.lean ====
/-
  The dense layer and the row-wise log-softmax written in the host's operations, read entry by entry, at any sizes.

  A host matrix product at (p, c) is the sum over the contracted coordinate; a one-row array stretched over the rows
  reads its row; sums are pointwise. So the host's  agg · wl + b + x · wr  is the layer of the specification (the bias
  may be added before or after the second product). A host maximum-reduction of a row from minus infinity is the
  supremum of the row, taking the maximum with minus infinity once more changes nothing, a column stretched over the
  row reads the column, and a host sum-reduction from zero is the sum of the row: so the host's log-softmax is the
  specification's.
-/
import Idealize.ShloMosaic.Lib.IdealHost
import proofs.«105766_j16209206575326_1_alg».proof.Proof.LayerSpec
import proofs.«105766_j16209206575326_1_alg».proof.Proof.LibPlainMatmul
import proofs.«105766_j16209206575326_1_alg».proof.Proof.LibBroadcasts
import proofs.«105766_j16209206575326_1_alg».proof.Proof.LibMaxReduce

noncomputable section

namespace Cert.ReferenceIdeal.RefLayer

open Idealize.ShloMosaic Idealize.ShloMosaic.ValueIdx
open scoped BigOperators

variable {N D C : ℕ}

/-! ## The dense layer -/

/-- The host's  agg · wl + (bias row over the nodes) + x · wr  is the layer. -/
theorem lin_host (agg x : FVec Ideal ⟨2, ![N, D]⟩ .f32) (wl wr : FVec Ideal ⟨2, ![D, C]⟩ .f32)
    (r : FVec Ideal ⟨2, ![1, C]⟩ .f32) (hb : (⟨2, ![1, C]⟩ : Shape).BroadcastsInDim ⟨2, ![N, C]⟩ ![0, 1]) :
    addf (addf (Host.dotGeneral (DotDims.plain N D C) none agg wl) (broadcastInDim ⟨2, ![N, C]⟩ ![0, 1] hb r))
        (Host.dotGeneral (DotDims.plain N D C) none x wr)
      = Cert.Layer.lin agg x wl wr r := by
  funext j
  obtain ⟨p, c, rfl⟩ : ∃ (p : Fin N) (c : Fin C), j = ix2 p c := ⟨j 0, j 1, eq_ix2 j⟩
  rw [addf_apply, addf_apply, Cert.LibPlainMatmul.dotGeneral_apply, Cert.LibPlainMatmul.dotGeneral_apply,
    Cert.LibBroadcasts.rows_apply, Cert.Layer.lin_apply]
  exact Cert.Layer.linAt_comm agg x wl wr r p c

/-! ## The row maximum -/

/-- Row `p` with column `k` put back is (p, k). -/
theorem lift_row (h : (⟨2, ![N, C]⟩ : Shape).Reduces [1] (⟨1, ![N]⟩ : Shape)) (p : Fin N)
    (k : Fin ((⟨2, ![N, C]⟩ : Shape).size 1)) : h.lift (ix1 p) k = ix2 p (⟨k.val, k.isLt⟩ : Fin C) := by
  funext c; apply Fin.ext
  fin_cases c <;> rfl

/-- Minus infinity as an extended real. -/
theorem ofBits_neg_inf : Ideal.ofBits .f32 0xFF800000#32 = (⊥ : EReal) := by
  simp [Ideal.ofBits, Ideal.ieee]

/-- The host's maximum-reduction of row `p` from minus infinity is the supremum of the row. -/
theorem hostRowMax (y : FVec Ideal ⟨2, ![N, C]⟩ .f32)
    (h' : (⟨2, ![N, C]⟩ : Shape).ReducesTo [1] (⟨1, ![N]⟩ : Shape))
    (h : (⟨2, ![N, C]⟩ : Shape).Reduces [1] (⟨1, ![N]⟩ : Shape)) (hu : 0 < (⟨0, ![]⟩ : Shape).numel) (p : Fin N) :
    Host.reduce FloatOps.maximumf y (constant (F := Ideal) (⟨0, ![]⟩ : Shape) .f32 0xFF800000#32) h' hu (ix1 p)
      = Cert.Layer.rowSup y p := by
  rw [Host.reduce_eq_fold_single FloatOps.maximumf y _ h' h hu, constant_apply]
  have e := Cert.Lib.fold_max_eq_max_sup (Finset.univ : Finset (Fin C)) (Ideal.ofBits .f32 0xFF800000#32)
    (fun k : Fin C => y (ix2 p k))
  rw [ofBits_neg_inf, max_eq_right bot_le] at e
  unfold Cert.Layer.rowSup
  refine Eq.trans ?_ e
  have hf : (y ∘ h.lift (ix1 p)) = fun k : Fin C => y (ix2 p k) := funext fun k => congrArg y (lift_row h p k)
  rw [ofBits_neg_inf]
  exact congrArg (fun f => Finset.fold max (⊥ : EReal) f (Finset.univ : Finset (Fin C))) hf

/-- The row maximum, taken once more against minus infinity and stretched back over the row, at (p, c). -/
theorem rowMax_host (y : FVec Ideal ⟨2, ![N, C]⟩ .f32)
    (h' : (⟨2, ![N, C]⟩ : Shape).ReducesTo [1] (⟨1, ![N]⟩ : Shape))
    (h : (⟨2, ![N, C]⟩ : Shape).Reduces [1] (⟨1, ![N]⟩ : Shape)) (hu : 0 < (⟨0, ![]⟩ : Shape).numel)
    (hb0 : (⟨0, ![]⟩ : Shape).BroadcastsInDim (⟨1, ![N]⟩ : Shape) ![])
    (hb1 : (⟨1, ![N]⟩ : Shape).BroadcastsInDim ⟨2, ![N, 1]⟩ ![0])
    (hb2 : (⟨2, ![N, 1]⟩ : Shape).BroadcastsInDim ⟨2, ![N, C]⟩ ![0, 1]) (p : Fin N) (c : Fin C) :
    broadcastInDim ⟨2, ![N, C]⟩ ![0, 1] hb2 (broadcastInDim ⟨2, ![N, 1]⟩ ![0] hb1
        (maximumf (broadcastInDim (⟨1, ![N]⟩ : Shape) ![] hb0 (constant (F := Ideal) (⟨0, ![]⟩ : Shape) .f32 0xFF800000#32))
          (Host.reduce FloatOps.maximumf y (constant (F := Ideal) (⟨0, ![]⟩ : Shape) .f32 0xFF800000#32) h' hu))) (ix2 p c)
      = Cert.Layer.rowSup y p := by
  rw [Cert.LibBroadcasts.spread_apply, Cert.LibBroadcasts.column_apply, maximumf_apply,
    Cert.LibBroadcasts.scalar_apply, constant_apply, hostRowMax y h' h hu p, ofBits_neg_inf]
  exact max_eq_right bot_le

/-! ## The log-softmax -/

/-- The host's sum-reduction of row `p` from zero is the sum of the row. -/
theorem hostRowSum (v : FVec Ideal ⟨2, ![N, C]⟩ .f32)
    (h' : (⟨2, ![N, C]⟩ : Shape).ReducesTo [1] (⟨1, ![N]⟩ : Shape))
    (h : (⟨2, ![N, C]⟩ : Shape).Reduces [1] (⟨1, ![N]⟩ : Shape)) (hu : 0 < (⟨0, ![]⟩ : Shape).numel) (p : Fin N) :
    Host.reduceAdd v (constant (F := Ideal) (⟨0, ![]⟩ : Shape) .f32 0x00000000#32) h' hu (ix1 p)
      = ∑ k : Fin C, v (ix2 p k) := by
  rw [hostReduceAdd_apply, Ideal.hostReduceAdd_single h' h, constant_apply, Ideal.ofBits_zero_f32, zero_add]
  exact Finset.sum_congr rfl fun k _ => congrArg v (lift_row h p k)

/-- The host's log-softmax, for any array `m` that reads the row's supremum at every entry of the row. -/
theorem lsm_host (y m : FVec Ideal ⟨2, ![N, C]⟩ .f32) (hm : ∀ (p : Fin N) (c : Fin C), m (ix2 p c) = Cert.Layer.rowSup y p)
    (h' : (⟨2, ![N, C]⟩ : Shape).ReducesTo [1] (⟨1, ![N]⟩ : Shape))
    (h : (⟨2, ![N, C]⟩ : Shape).Reduces [1] (⟨1, ![N]⟩ : Shape)) (hu : 0 < (⟨0, ![]⟩ : Shape).numel)
    (hb1 : (⟨1, ![N]⟩ : Shape).BroadcastsInDim ⟨2, ![N, 1]⟩ ![0])
    (hb2 : (⟨2, ![N, 1]⟩ : Shape).BroadcastsInDim ⟨2, ![N, C]⟩ ![0, 1]) :
    subf (subf y m) (broadcastInDim ⟨2, ![N, C]⟩ ![0, 1] hb2 (Host.log (broadcastInDim ⟨2, ![N, 1]⟩ ![0] hb1
        (Host.reduceAdd (Host.exp (subf y m)) (constant (F := Ideal) (⟨0, ![]⟩ : Shape) .f32 0x00000000#32) h' hu))))
      = Cert.Layer.lsm y := by
  funext j
  obtain ⟨p, c, rfl⟩ : ∃ (p : Fin N) (c : Fin C), j = ix2 p c := ⟨j 0, j 1, eq_ix2 j⟩
  rw [subf_apply, subf_apply, Cert.LibBroadcasts.spread_apply, Cert.Layer.lsm_apply, hm p c]
  unfold Cert.Layer.lsmAt
  show (y (ix2 p c) - Cert.Layer.rowSup y p)
      - Ideal.log (broadcastInDim ⟨2, ![N, 1]⟩ ![0] hb1
          (Host.reduceAdd (Host.exp (subf y m)) (constant (F := Ideal) (⟨0, ![]⟩ : Shape) .f32 0x00000000#32) h' hu) (ix2 p 0)) = _
  rw [Cert.LibBroadcasts.column_apply, hostRowSum _ h' h hu p]
  refine congrArg (fun s => (y (ix2 p c) - Cert.Layer.rowSup y p) - Ideal.log s) (Finset.sum_congr rfl fun k _ => ?_)
  show Ideal.exp (subf y m (ix2 p k)) = _
  rw [subf_apply, hm p k]

end Cert.ReferenceIdeal.RefLayer

end
-- ==== Proof.RefLayer.lean ====
/-
  The reference's dense layers are the specification's.

  Each of the reference's layers, named in its own host operations, is — entry by entry on the extended reals — the
  layer of the specification: a hidden layer and the last layer before its log-softmax are  agg · wl + x · wr + b,
  the host's row-wise log-softmax is the specification's, and a bias vector laid out as one row is the same row
  whether it is made by a broadcast or by a reshape.
-/
import proofs.«105766_j16209206575326_1_alg».proof.Proof.RefForms
import proofs.«105766_j16209206575326_1_alg».proof.Proof.RefLayerLemmas

noncomputable section

namespace Cert.ReferenceIdeal.RefLayer

open Cert.ReferenceIdeal Cert.ReferenceIdeal.Gen Idealize.ShloMosaic Idealize.ShloMosaic.ValueIdx
open scoped BigOperators

/-- The printed dimension numbers of the [50000,128] by [128,128] product are the plain ones. -/
theorem dot128_eq : dot_S50000x128_S128x128_S50000x128_1_0_0_1_n_n = DotDims.plain 50000 128 128 := rfl

/-- The printed dimension numbers of the [50000,128] by [128,64] product are the plain ones. -/
theorem dot64_eq : dot_S50000x128_S128x64_S50000x64_1_0_0_1_n_n = DotDims.plain 50000 128 64 := rfl

/-- A hidden layer of the reference is the layer. -/
theorem lin128_eq (agg x : (⟨S50000x128, .f32⟩ : BufTy).Contents (Elt Ideal))
    (wl : (⟨S128x128, .f32⟩ : BufTy).Contents (Elt Ideal)) (b : (⟨S128, .f32⟩ : BufTy).Contents (Elt Ideal))
    (wr : (⟨S128x128, .f32⟩ : BufTy).Contents (Elt Ideal)) :
    Forms.lin128 (F := Ideal) agg x wl b wr = Cert.Layer.lin agg x wl wr (Forms.biasRow128 b) := by
  unfold Forms.lin128
  rw [dot128_eq]
  exact lin_host agg x wl wr (Forms.biasRow128 b) bcast_S1x128_S50000x128_0_1

/-- The reference's last layer before its log-softmax is the layer. -/
theorem lin64_eq (agg x : (⟨S50000x128, .f32⟩ : BufTy).Contents (Elt Ideal))
    (wl : (⟨S128x64, .f32⟩ : BufTy).Contents (Elt Ideal)) (b : (⟨S64, .f32⟩ : BufTy).Contents (Elt Ideal))
    (wr : (⟨S128x64, .f32⟩ : BufTy).Contents (Elt Ideal)) :
    Forms.lin64 (F := Ideal) agg x wl b wr = Cert.Layer.lin agg x wl wr (Forms.biasRow64 b) := by
  unfold Forms.lin64
  rw [dot64_eq]
  exact lin_host agg x wl wr (Forms.biasRow64 b) bcast_S1x64_S50000x64_0_1

/-- The shapes of a row reduction of a [50000,64] array. -/
theorem reduces_rows : S50000x64.Reduces [1] S50000 := by decide

/-- The reference's stretched row maximum reads the row's supremum at every entry of the row. -/
theorem rowMax_apply (y : (⟨S50000x64, .f32⟩ : BufTy).Contents (Elt Ideal)) (p : Fin 50000) (c : Fin 64) :
    Forms.rowMax (F := Ideal) y (ix2 p c) = Cert.Layer.rowSup y p := by
  unfold Forms.rowMax
  exact rowMax_host y reducesTo_S50000x64_S50000_d1 reduces_rows h_S_ bcast_S_S50000 bcast_S50000_S50000x1_0
    bcast_S50000x1_S50000x64_0_1 p c

/-- The reference's row-wise log-softmax is the specification's. -/
theorem lsm_eq (y : (⟨S50000x64, .f32⟩ : BufTy).Contents (Elt Ideal)) :
    Forms.lsm (F := Ideal) y = Cert.Layer.lsm y := by
  unfold Forms.lsm
  exact lsm_host y (Forms.rowMax (F := Ideal) y) (rowMax_apply y) reducesTo_S50000x64_S50000_d1 reduces_rows h_S_
    bcast_S50000_S50000x1_0 bcast_S50000x1_S50000x64_0_1

/-- A [128] bias reshaped to one row is the bias broadcast to one row. -/
theorem biasRow128_eq_cast (b : (⟨S128, .f32⟩ : BufTy).Contents (Elt Ideal))
    (h : (⟨1, ![128]⟩ : Shape).ShapeCasts ⟨2, ![1, 128]⟩) :
    shapeCast ⟨2, ![1, 128]⟩ b h = Forms.biasRow128 (F := Ideal) b := by
  funext j
  obtain ⟨z, k, rfl⟩ : ∃ (z : Fin 1) (k : Fin 128), j = ix2 z k := ⟨j 0, j 1, eq_ix2 j⟩
  unfold Forms.biasRow128
  rw [Cert.LibBroadcasts.row_cast_apply, Cert.LibBroadcasts.row_apply]

/-- A [64] bias reshaped to one row is the bias broadcast to one row. -/
theorem biasRow64_eq_cast (b : (⟨S64, .f32⟩ : BufTy).Contents (Elt Ideal))
    (h : (⟨1, ![64]⟩ : Shape).ShapeCasts ⟨2, ![1, 64]⟩) :
    shapeCast ⟨2, ![1, 64]⟩ b h = Forms.biasRow64 (F := Ideal) b := by
  funext j
  obtain ⟨z, k, rfl⟩ : ∃ (z : Fin 1) (k : Fin 64), j = ix2 z k := ⟨j 0, j 1, eq_ix2 j⟩
  unfold Forms.biasRow64
  rw [Cert.LibBroadcasts.row_cast_apply, Cert.LibBroadcasts.row_apply]

end Cert.ReferenceIdeal.RefLayer

end
-- ==== Proof.Bridge.lean ====
/-
  The two programs compute the same three arrays.

  Around the dense layers both programs apply the same host operations (the edge list's rows, the neighbourhood mean,
  the rectifier, the per-graph mean): the named functions of the two programs are the same functions. A dense layer is
  the same function on both sides (`lin128_eq`, `lin64_eq`: the reference adds the bias between the two products, the
  kernel after them, and addition on the extended reals is commutative and associative), the bias row is the same array
  whether the vector is reshaped or broadcast, and the log-softmax is the same row-wise function (`lsm_eq`). So the
  composed values agree layer by layer, for every choice of the twelve argument arrays; no finiteness is used.
-/
import proofs.«105766_j16209206575326_1_alg».proof.Proof.KernelValue
import proofs.«105766_j16209206575326_1_alg».proof.Proof.RefResults
import proofs.«105766_j16209206575326_1_alg».proof.Proof.RefLayer

noncomputable section

namespace Cert.Bridge

open Idealize.ShloMosaic

/-! ## The host functions of the two programs are the same functions -/

section glue
variable {F : FTy → Type} [FloatOps F]

theorem src_eq (ei : (⟨Cert.KernelIdeal.S2x600000, .i32⟩ : BufTy).Contents (Elt F)) : Cert.ReferenceIdeal.Glue.src ei = Cert.KernelIdeal.Glue.src ei := rfl
theorem dst_eq (ei : (⟨Cert.KernelIdeal.S2x600000, .i32⟩ : BufTy).Contents (Elt F)) : Cert.ReferenceIdeal.Glue.dst ei = Cert.KernelIdeal.Glue.dst ei := rfl
theorem agg_eq (x : (⟨Cert.KernelIdeal.S50000x128, .f32⟩ : BufTy).Contents (Elt F)) (s d : (⟨Cert.KernelIdeal.S600000, .i32⟩ : BufTy).Contents (Elt F)) :
    Cert.ReferenceIdeal.Glue.agg x s d = Cert.KernelIdeal.Glue.agg x s d := rfl
theorem relu_eq (x : (⟨Cert.KernelIdeal.S50000x128, .f32⟩ : BufTy).Contents (Elt F)) : Cert.ReferenceIdeal.Glue.relu x = Cert.KernelIdeal.Glue.relu x := rfl
theorem pool_eq (x : (⟨Cert.KernelIdeal.S50000x128, .f32⟩ : BufTy).Contents (Elt F)) (cl : (⟨Cert.KernelIdeal.S50000, .i32⟩ : BufTy).Contents (Elt F)) :
    Cert.ReferenceIdeal.Glue.pool x cl = Cert.KernelIdeal.Glue.pool x cl := rfl

end glue

/-! ## The composed values agree, for all argument arrays -/

section values
variable (a0 : (⟨Cert.KernelIdeal.S50000x128, .f32⟩ : BufTy).Contents (Elt Ideal)) (a1 : (⟨Cert.KernelIdeal.S2x600000, .i32⟩ : BufTy).Contents (Elt Ideal)) (a2 : (⟨Cert.KernelIdeal.S50000, .i32⟩ : BufTy).Contents (Elt Ideal))
    (a3 : (⟨Cert.KernelIdeal.S128x128, .f32⟩ : BufTy).Contents (Elt Ideal)) (a4 : (⟨Cert.KernelIdeal.S128, .f32⟩ : BufTy).Contents (Elt Ideal)) (a5 : (⟨Cert.KernelIdeal.S128x128, .f32⟩ : BufTy).Contents (Elt Ideal))
    (a6 : (⟨Cert.KernelIdeal.S128x128, .f32⟩ : BufTy).Contents (Elt Ideal)) (a7 : (⟨Cert.KernelIdeal.S128, .f32⟩ : BufTy).Contents (Elt Ideal)) (a8 : (⟨Cert.KernelIdeal.S128x128, .f32⟩ : BufTy).Contents (Elt Ideal))
    (a9 : (⟨Cert.KernelIdeal.S128x64, .f32⟩ : BufTy).Contents (Elt Ideal)) (a10 : (⟨Cert.KernelIdeal.S64, .f32⟩ : BufTy).Contents (Elt Ideal)) (a11 : (⟨Cert.KernelIdeal.S128x64, .f32⟩ : BufTy).Contents (Elt Ideal))

theorem out0_eq : Cert.ReferenceIdeal.Results.out0F a0 a1 a3 a4 a5 = Cert.KernelIdeal.Results.out0F a0 a1 a3 a4 a5 := by
  unfold Cert.ReferenceIdeal.Results.out0F Cert.KernelIdeal.Results.out0F
  rw [Cert.ReferenceIdeal.RefLayer.lin128_eq, Cert.ReferenceIdeal.RefLayer.biasRow128_eq_cast, src_eq, dst_eq, agg_eq]

theorem out1_eq : Cert.ReferenceIdeal.Results.out1F a0 a1 a3 a4 a5 a6 a7 a8 = Cert.KernelIdeal.Results.out1F a0 a1 a3 a4 a5 a6 a7 a8 := by
  unfold Cert.ReferenceIdeal.Results.out1F Cert.KernelIdeal.Results.out1F
  rw [Cert.ReferenceIdeal.RefLayer.lin128_eq, Cert.ReferenceIdeal.RefLayer.biasRow128_eq_cast, out0_eq, src_eq, dst_eq, relu_eq, agg_eq]

theorem logp_eq : Cert.ReferenceIdeal.Results.logpF a0 a1 a3 a4 a5 a6 a7 a8 a9 a10 a11
    = Cert.KernelIdeal.Results.logpF a0 a1 a3 a4 a5 a6 a7 a8 a9 a10 a11 := by
  unfold Cert.ReferenceIdeal.Results.logpF Cert.KernelIdeal.Results.logpF
  rw [Cert.ReferenceIdeal.RefLayer.lsm_eq, Cert.ReferenceIdeal.RefLayer.lin64_eq, Cert.ReferenceIdeal.RefLayer.biasRow64_eq_cast, out1_eq, src_eq, dst_eq, relu_eq, agg_eq]

theorem pooled_eq : Cert.ReferenceIdeal.Results.pooledF a0 a1 a2 a3 a4 a5 a6 a7 a8
    = Cert.KernelIdeal.Results.pooledF a0 a1 a2 a3 a4 a5 a6 a7 a8 := by
  unfold Cert.ReferenceIdeal.Results.pooledF Cert.KernelIdeal.Results.pooledF
  rw [out1_eq, relu_eq, pool_eq]

end values

end Cert.Bridge

end
-- ==== Proof.lean ====
/-
  The claim: the kernel program, its idealization and the idealized reference each run to the end without a fault and
  leave their arguments unchanged; the idealization rewrote no operation; and from memories that agree on the twelve
  arguments the idealized kernel program and the idealized reference end with equal results on the extended reals.

  The program is three message-passing layers over a graph of 50000 nodes and 600000 edges. Each layer takes, for every
  node, the mean of its in-neighbours' feature rows (a gather by edge source, a scatter-add by edge destination, a
  division by the in-degree counted as at least one) and applies  mean · Wl + x · Wr + b ; the first two layers are
  followed by the rectifier, the second one's rectified output is also averaged per graph, and the last layer is
  followed by a row-wise log-softmax. The kernel program computes the dense part of each layer in a grid of 25 blocks
  of 2000 rows (two matrix products into zero accumulators, their sum, plus the bias row; in the last layer also the
  row maximum, the shifted row, the logarithm of the sum of its exponentials); the reference computes it with whole
  matrix products, adding the bias between the two. Block by block the kernel's output array is the layer function of
  the whole arrays (each output row depends on the same row of the inputs and on the whole weights, and the 25 blocks
  cover the rows); the two orders of adding the bias agree because addition on the extended reals is commutative and
  associative; everything around the dense parts is the same host operations applied to arrays already shown equal.
  The three results are the class log-probabilities, the second layer's output before the rectifier, and the
  per-graph means.
-/
import proofs.«105766_j16209206575326_1_alg».proof.Defs
import proofs.«105766_j16209206575326_1_alg».proof.Proof.Gen.Kernel
import proofs.«105766_j16209206575326_1_alg».proof.Proof.Gen.Kernel.Frame
import proofs.«105766_j16209206575326_1_alg».proof.Proof.Gen.KernelIdeal
import proofs.«105766_j16209206575326_1_alg».proof.Proof.Gen.KernelIdeal.Frame
import proofs.«105766_j16209206575326_1_alg».proof.Proof.Gen.ReferenceIdeal
import proofs.«105766_j16209206575326_1_alg».proof.Proof.Gen.Pre_finite_inputs
import proofs.«105766_j16209206575326_1_alg».proof.Proof.KernelRun
import proofs.«105766_j16209206575326_1_alg».proof.Proof.KernelValue
import proofs.«105766_j16209206575326_1_alg».proof.Proof.RefValue
import proofs.«105766_j16209206575326_1_alg».proof.Proof.Bridge

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the results forgotten. -/
theorem frame_referenceIdeal : Cert.frame_ReferenceIdeal := fun m ρ _ =>
  (θ_run Cert.ReferenceIdeal.defs _ _).mono (fun _ h c => (h c).2.2.2) (Cert.ReferenceIdeal.Results.run (F := Ideal) m ρ)

/-- The idealization rewrote no operation. -/
theorem preserves : Cert.preserves_Kernel_KernelIdeal := trivial

/-- Both idealized programs end at the same three arrays: the kernel program's composed values. -/
theorem algebraic : Cert.algebraic_KernelIdeal_ReferenceIdeal := by
  intro m ρ m' ρ' _ hagree
  refine ⟨fun c => Cert.KernelIdeal.Results.logp m c, fun c => Cert.KernelIdeal.Results.out1 m c,
    fun c => Cert.KernelIdeal.Results.pooled m c, ?_, ?_⟩
  · refine (θ_run Cert.KernelIdeal.defs _ _).mono (fun r h c => ?_) (Cert.KernelIdeal.RunValue.run_results (F := Ideal) m ρ)
    obtain ⟨h78, h45, h58, hargs⟩ := h c
    exact ⟨h78.trans (Cert.KernelIdeal.Results.w6_logp m ρ c), h45.trans (Cert.KernelIdeal.Results.w6_out1 m ρ c),
      h58.trans (Cert.KernelIdeal.Results.w6_pooled m ρ c), hargs⟩
  · refine (θ_run Cert.ReferenceIdeal.defs _ _).mono (fun r h c => ?_) (Cert.ReferenceIdeal.Results.run (F := Ideal) m' ρ')
    obtain ⟨h89, h52, h64, hargs⟩ := h c
    obtain ⟨e0, e1, e2, e3, e4, e5, e6, e7, e8, e9, e10, e11⟩ := hagree c
    refine ⟨h89.trans ?_, h52.trans ?_, h64.trans ?_, hargs⟩
    · dsimp only [Cert.ReferenceIdeal.Results.logp, Cert.KernelIdeal.Results.logp]
      rw [e0, e1, e3, e4, e5, e6, e7, e8, e9, e10, e11]
      exact Cert.Bridge.logp_eq _ _ _ _ _ _ _ _ _ _ _
    · dsimp only [Cert.ReferenceIdeal.Results.out1, Cert.KernelIdeal.Results.out1]
      rw [e0, e1, e3, e4, e5, e6, e7, e8]
      exact Cert.Bridge.out1_eq _ _ _ _ _ _ _ _
    · dsimp only [Cert.ReferenceIdeal.Results.pooled, Cert.KernelIdeal.Results.pooled]
      rw [e0, e1, e2, e3, e4, e5, e6, e7, e8]
      exact Cert.Bridge.pooled_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
